-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3x60x240 : Shape := ⟨4, ![1024, 3, 60, 240]⟩
abbrev S360x180 : Shape := ⟨2, ![360, 180]⟩
abbrev S360 : Shape := ⟨1, ![360]⟩
abbrev S360x90 : Shape := ⟨2, ![360, 90]⟩
abbrev S40x21600 : Shape := ⟨2, ![40, 21600]⟩
abbrev S40 : Shape := ⟨1, ![40]⟩
abbrev S_ : Shape := ⟨0, ![]⟩

class Facts : Prop where
  bcast_S_S1024x3x60x240 : S_.BroadcastsInDim S1024x3x60x240 (![] : Fin 0 → Fin S1024x3x60x240.rank)
  reducesTo_S1024x3x60x240_S_d0_1_2_3 : S1024x3x60x240.ReducesTo [0, 1, 2, 3] S_
  h_S_ : 0 < S_.numel
  bcast_S_S360x180 : S_.BroadcastsInDim S360x180 (![] : Fin 0 → Fin S360x180.rank)
  reducesTo_S360x180_S_d0_1 : S360x180.ReducesTo [0, 1] S_
  bcast_S_S360 : S_.BroadcastsInDim S360 (![] : Fin 0 → Fin S360.rank)
  reducesTo_S360_S_d0 : S360.ReducesTo [0] S_
  bcast_S_S360x90 : S_.BroadcastsInDim S360x90 (![] : Fin 0 → Fin S360x90.rank)
  reducesTo_S360x90_S_d0_1 : S360x90.ReducesTo [0, 1] S_
  bcast_S_S40x21600 : S_.BroadcastsInDim S40x21600 (![] : Fin 0 → Fin S40x21600.rank)
  reducesTo_S40x21600_S_d0_1 : S40x21600.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40x21600 .f32) (main_arg8 : FVec F S40 .f32) (main_v33 : IVec S_ 1) : IVec S_ 1 :=
  let main_v34 : FVec F S40x21600 .f32 := Host.absf main_arg7
  let main_cst_12 : FVec F S_ .f32 := constant S_ .f32 0x7F800000#32
  let main_v35 : FVec F S40x21600 .f32 := broadcastInDim S40x21600 ![] bcast_S_S40x21600 main_cst_12
  let main_v36 : IVec S40x21600 1 := cmpf .olt main_v34 main_v35
  let main_c_13 : IVec S_ 1 := constantI S_ 1 1#1
  let main_v37 : IVec S_ 1 := (fun x v => Host.reduce IntOp.andi x v reducesTo_S40x21600_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg4 : FVec F S360x90 .f32) (main_arg5 : FVec F S360 .f32) (main_arg6 : FVec F S360 .f32) (main_arg7 : FVec F S40x21600 .f32) (main_arg8 : FVec F S40 .f32) (main_v13 : IVec S_ 1) (main_v16 : IVec S360 1) : IVec S_ 1 :=
  let main_c_5 : IVec S_ 1 := constantI S_ 1 1#1
  let main_v17 : IVec S_ 1 := (fun x v => Host.reduce IntOp.andi x v reducesTo_S360_S_d0 h_S_) main_v16 main_c_5
  let main_v18 : IVec S_ 1 := andi main_v13 main_v17
  let main_v19 : FVec F S360x90 .f32 := Host.absf main_arg4
  let main_cst_6 : FVec F S_ .f32 := constant S_ .f32 0x7F800000#32
  let main_v20 : FVec F S360x90 .f32 := broadcastInDim S360x90 ![] bcast_S_S360x90 main_cst_6
  let main_v21 : IVec S360x90 1 := cmpf .olt main_v19 main_v20
  let main_c_7 : IVec S_ 1 := constantI S_ 1 1#1
  let main_v22 : IVec S_ 1 := (fun x v => Host.reduce IntOp.andi x v reducesTo_S360x90_S_d0_1 h_S_) main_v21 main_c_7
  let main_v23 : IVec S_ 1 := andi main_v18 main_v22
  let main_v24 : FVec F S360 .f32 := Host.absf main_arg5
  let main_cst_8 : FVec F S_ .f32 := constant S_ .f32 0x7F800000#32
  let main_v25 : FVec F S360 .f32 := broadcastInDim S360 ![] bcast_S_S360 main_cst_8
  let main_v26 : IVec S360 1 := cmpf .olt main_v24 main_v25
  let main_c_9 : IVec S_ 1 := constantI S_ 1 1#1
  let main_v27 : IVec S_ 1 := (fun x v => Host.reduce IntOp.andi x v reducesTo_S360_S_d0 h_S_) main_v26 main_c_9
  let main_v28 : IVec S_ 1 := andi main_v23 main_v27
  let main_v29 : FVec F S360 .f32 := Host.absf main_arg6
  let main_cst_10 : FVec F S_ .f32 := constant S_ .f32 0x7F800000#32
  let main_v30 : FVec F S360 .f32 := broadcastInDim S360 ![] bcast_S_S360 main_cst_10
  let main_v31 : IVec S360 1 := cmpf .olt main_v29 main_v30
  let main_c_11 : IVec S_ 1 := constantI S_ 1 1#1
  let main_v32 : IVec S_ 1 := (fun x v => Host.reduce IntOp.andi x v reducesTo_S360_S_d0 h_S_) main_v31 main_c_11
  let main_v33 : IVec S_ 1 := andi main_v28 main_v32
  fn_part2 (F := F) main_arg7 main_arg8 main_v33

def fn {F : FTy → Type} [FloatOps F] (main_arg0 : FVec F S1024x3x60x240 .f32) (main_arg1 : FVec F S360x180 .f32) (main_arg2 : FVec F S360 .f32) (main_arg3 : FVec F S360 .f32) (main_arg4 : FVec F S360x90 .f32) (main_arg5 : FVec F S360 .f32) (main_arg6 : FVec F S360 .f32) (main_arg7 : FVec F S40x21600 .f32) (main_arg8 : FVec F S40 .f32) : IVec S_ 1 :=
  let main_v0 : FVec F S1024x3x60x240 .f32 := Host.absf main_arg0
  let main_cst : FVec F S_ .f32 := constant S_ .f32 0x7F800000#32
  let main_v1 : FVec F S1024x3x60x240 .f32 := broadcastInDim S1024x3x60x240 ![] bcast_S_S1024x3x60x240 main_cst
  let main_v2 : IVec S1024x3x60x240 1 := cmpf .olt main_v0 main_v1
  let main_c : IVec S_ 1 := constantI S_ 1 1#1
  let main_v3 : IVec S_ 1 := (fun x v => Host.reduce IntOp.andi x v reducesTo_S1024x3x60x240_S_d0_1_2_3 h_S_) main_v2 main_c
  let main_v4 : FVec F S360x180 .f32 := Host.absf main_arg1
  let main_cst_0 : FVec F S_ .f32 := constant S_ .f32 0x7F800000#32
  let main_v5 : FVec F S360x180 .f32 := broadcastInDim S360x180 ![] bcast_S_S360x180 main_cst_0
  let main_v6 : IVec S360x180 1 := cmpf .olt main_v4 main_v5
  let main_c_1 : IVec S_ 1 := constantI S_ 1 1#1
  let main_v7 : IVec S_ 1 := (fun x v => Host.reduce IntOp.andi x v reducesTo_S360x180_S_d0_1 h_S_) main_v6 main_c_1
  let main_v8 : IVec S_ 1 := andi main_v3 main_v7
  let main_v9 : FVec F S360 .f32 := Host.absf main_arg2
  let main_cst_2 : FVec F S_ .f32 := constant S_ .f32 0x7F800000#32
  let main_v10 : FVec F S360 .f32 := broadcastInDim S360 ![] bcast_S_S360 main_cst_2
  let main_v11 : IVec S360 1 := cmpf .olt main_v9 main_v10
  let main_c_3 : IVec S_ 1 := constantI S_ 1 1#1
  let main_v12 : IVec S_ 1 := (fun x v => Host.reduce IntOp.andi x v reducesTo_S360_S_d0 h_S_) main_v11 main_c_3
  let main_v13 : IVec S_ 1 := andi main_v8 main_v12
  let main_v14 : FVec F S360 .f32 := Host.absf main_arg3
  let main_cst_4 : FVec F S_ .f32 := constant S_ .f32 0x7F800000#32
  let main_v15 : FVec F S360 .f32 := broadcastInDim S360 ![] bcast_S_S360 main_cst_4
  let main_v16 : IVec S360 1 := cmpf .olt main_v14 main_v15
  fn_part1 (F := F) main_arg4 main_arg5 main_arg6 main_arg7 main_arg8 main_v13 main_v16
-- ==== Kernel.lean ====
abbrev S1024x3x60x240 : Shape := ⟨4, ![1024, 3, 60, 240]⟩
abbrev S360x180 : Shape := ⟨2, ![360, 180]⟩
abbrev S360 : Shape := ⟨1, ![360]⟩
abbrev S360x90 : Shape := ⟨2, ![360, 90]⟩
abbrev S40x21600 : Shape := ⟨2, ![40, 21600]⟩
abbrev S40 : Shape := ⟨1, ![40]⟩
abbrev S1024x240x3x60 : Shape := ⟨4, ![1024, 240, 3, 60]⟩
abbrev S1024x240x180 : Shape := ⟨3, ![1024, 240, 180]⟩
abbrev S40x240x90 : Shape := ⟨3, ![40, 240, 90]⟩
abbrev S1024x40 : Shape := ⟨2, ![1024, 40]⟩
abbrev S64x24x180 : Shape := ⟨3, ![64, 24, 180]⟩
abbrev S64x40 : Shape := ⟨2, ![64, 40]⟩
abbrev S1536x180 : Shape := ⟨2, ![1536, 180]⟩
abbrev S1536x360 : Shape := ⟨2, ![1536, 360]⟩
abbrev S64x24x360 : Shape := ⟨3, ![64, 24, 360]⟩
abbrev S1x1x360 : Shape := ⟨3, ![1, 1, 360]⟩
abbrev S64x24x90 : Shape := ⟨3, ![64, 24, 90]⟩
abbrev S1536x90 : Shape := ⟨2, ![1536, 90]⟩
abbrev S40x24x90 : Shape := ⟨3, ![40, 24, 90]⟩
abbrev S64x1x90 : Shape := ⟨3, ![64, 1, 90]⟩
abbrev S64x90 : Shape := ⟨2, ![64, 90]⟩
abbrev S40x1x90 : Shape := ⟨3, ![40, 1, 90]⟩
abbrev S40x90 : Shape := ⟨2, ![40, 90]⟩
abbrev S1x40 : Shape := ⟨2, ![1, 40]⟩
abbrev S1024x4x10 : Shape := ⟨3, ![1024, 4, 10]⟩
abbrev S_ : Shape := ⟨0, ![]⟩
abbrev S1024x4 : Shape := ⟨2, ![1024, 4]⟩
abbrev S1024x4x1 : Shape := ⟨3, ![1024, 4, 1]⟩

abbrev nBuf : Space → Nat
  | .hbm => 33
  | .vmem => 11
  | .smem => 0
  | _ => 0

abbrev bufTy : (tb : Table) → Fin (tcTables nBuf tb) → BufTy
  | .hbm, ⟨0, _⟩ => ⟨S1024x3x60x240, .f32⟩
  | .hbm, ⟨1, _⟩ => ⟨S360x180, .f32⟩
  | .hbm, ⟨2, _⟩ => ⟨S360, .f32⟩
  | .hbm, ⟨3, _⟩ => ⟨S360, .f32⟩
  | .hbm, ⟨4, _⟩ => ⟨S360x90, .f32⟩
  | .hbm, ⟨5, _⟩ => ⟨S360, .f32⟩
  | .hbm, ⟨6, _⟩ => ⟨S360, .f32⟩
  | .hbm, ⟨7, _⟩ => ⟨S40x21600, .f32⟩
  | .hbm, ⟨8, _⟩ => ⟨S40, .f32⟩
  | .hbm, ⟨9, _⟩ => ⟨S1024x3x60x240, .bf16⟩
  | .hbm, ⟨10, _⟩ => ⟨S1024x240x3x60, .bf16⟩
  | .hbm, ⟨11, _⟩ => ⟨S1024x240x180, .bf16⟩
  | .hbm, ⟨12, _⟩ => ⟨S360x180, .bf16⟩
  | .hbm, ⟨13, _⟩ => ⟨S360, .f32⟩
  | .hbm, ⟨14, _⟩ => ⟨S360x90, .bf16⟩
  | .hbm, ⟨15, _⟩ => ⟨S360, .f32⟩
  | .hbm, ⟨16, _⟩ => ⟨S40x240x90, .f32⟩
  | .hbm, ⟨17, _⟩ => ⟨S1024x40, .f32⟩
  | .hbm, ⟨18, _⟩ => ⟨S1024x4x10, .f32⟩
  | .hbm, ⟨19, _⟩ => ⟨S_, .f32⟩
  | .hbm, ⟨20, _⟩ => ⟨S1024x4, .f32⟩
  | .hbm, ⟨21, _⟩ => ⟨S_, .f32⟩
  | .hbm, ⟨22, _⟩ => ⟨S1024x4, .f32⟩
  | .hbm, ⟨23, _⟩ => ⟨S1024x4, .f32⟩
  | .hbm, ⟨24, _⟩ => ⟨S1024x4x1, .f32⟩
  | .hbm, ⟨25, _⟩ => ⟨S1024x4x10, .f32⟩
  | .hbm, ⟨26, _⟩ => ⟨S1024x4x10, .f32⟩
  | .hbm, ⟨27, _⟩ => ⟨S1024x4x10, .f32⟩
  | .hbm, ⟨28, _⟩ => ⟨S_, .f32⟩
  | .hbm, ⟨29, _⟩ => ⟨S1024x4, .f32⟩
  | .hbm, ⟨30, _⟩ => ⟨S1024x4x1, .f32⟩
  | .hbm, ⟨31, _⟩ => ⟨S1024x4x10, .f32⟩
  | .hbm, ⟨32, _⟩ => ⟨S1024x4x10, .f32⟩
  | .local _ .vmem, ⟨0, _⟩ => ⟨S64x24x180, .bf16⟩
  | .local _ .vmem, ⟨1, _⟩ => ⟨S64x24x180, .bf16⟩
  | .local _ .vmem, ⟨2, _⟩ => ⟨S360x180, .bf16⟩
  | .local _ .vmem, ⟨3, _⟩ => ⟨S360, .f32⟩
  | .local _ .vmem, ⟨4, _⟩ => ⟨S360x90, .bf16⟩
  | .local _ .vmem, ⟨5, _⟩ => ⟨S360, .f32⟩
  | .local _ .vmem, ⟨6, _⟩ => ⟨S40x240x90, .f32⟩
  | .local _ .vmem, ⟨7, _⟩ => ⟨S40, .f32⟩
  | .local _ .vmem, ⟨8, _⟩ => ⟨S64x40, .f32⟩
  | .local _ .vmem, ⟨9, _⟩ => ⟨S64x40, .f32⟩
  | .local _ .vmem, ⟨10, _⟩ => ⟨S64x40, .f32⟩
  | _, _ => ⟨S1024x3x60x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 10], ![false, false]⟩

def k0_mult1 (i : grid0.Coords) : BitVec 32 :=
  let arg1 : BitVec 32 := BitVec.ofNat 32 (i 1).val
  let c24_i32 : BitVec 32 := 24#32
  let v46 : BitVec 32 := Scalar.muli arg1 c24_i32
  v46
def k0_off1 (i : grid0.Coords) : Fin 3 → Nat :=
  let c0_10 : Index := 0#32
  let arg1 : BitVec 32 := BitVec.ofNat 32 (i 1).val
  let c24_i32 : BitVec 32 := 24#32
  let v46 : BitVec 32 := Scalar.muli arg1 c24_i32
  let v47 : BitVec 32 := v46
  let v48 : Index := Scalar.indexCast v47
  let c0_11 : Index := 0#32
  ![0, v48.toNat, 0]
def k0_cond2 (i : grid0.Coords) : BitVec 1 :=
  let arg1 : BitVec 32 := BitVec.ofNat 32 (i 1).val
  let c9_i32 : BitVec 32 := 9#32
  let v202 : BitVec 1 := Scalar.cmpi .eq arg1 c9_i32
  let v203 : BitVec 32 := Scalar.extui v202
  let c0_i32_41 : BitVec 32 := 0#32
  let v204 : BitVec 1 := Scalar.cmpi .ne v203 c0_i32_41
  v204

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x24x180 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S360x180 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S360x90 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S40x240x90 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  transposes_S1024x3x60x240_S1024x240x3x60_0_3_1_2 : S1024x3x60x240.Transposes [0, 3, 1, 2] S1024x240x3x60
  shapeCasts_S1024x240x3x60_S1024x240x180 : S1024x240x3x60.ShapeCasts S1024x240x180
  shapeCasts_S40x21600_S40x240x90 : S40x21600.ShapeCasts S40x240x90
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S64x24x180_S64x24x180_0_0_0 : ∀ a, (![0, 0, 0] : Fin 3 → Nat) a + S64x24x180.size a ≤ S64x24x180.size a
  h_S64x24x180 : 0 < S64x24x180.numel
  shapeCasts_S64x24x180_S64x24x180 : S64x24x180.ShapeCasts S64x24x180
  shapeCasts_S64x24x180_S1536x180 : S64x24x180.ShapeCasts S1536x180
  inb_S360x180_S360x180_0_0 : ∀ a, (![0, 0] : Fin 2 → Nat) a + S360x180.size a ≤ S360x180.size a
  h_S360x180 : 0 < S360x180.numel
  shapeCasts_S360x180_S360x180 : S360x180.ShapeCasts S360x180
  shapeCasts_S1536x360_S64x24x360 : S1536x360.ShapeCasts S64x24x360
  inb_S360_S360_0 : ∀ a, (![0] : Fin 1 → Nat) a + S360.size a ≤ S360.size a
  h_S360 : 0 < S360.numel
  shapeCasts_S360_S360 : S360.ShapeCasts S360
  shapeCasts_S360_S1x1x360 : S360.ShapeCasts S1x1x360
  broadcasts_S1x1x360_S64x24x360 : S1x1x360.Broadcasts S64x24x360
  slices_S64x24x360_o0_0_0_S64x24x90 : S64x24x360.Slices ![0, 0, 0] S64x24x90
  slices_S64x24x360_o0_0_180_S64x24x90 : S64x24x360.Slices ![0, 0, 180] S64x24x90
  slices_S64x24x360_o0_0_270_S64x24x90 : S64x24x360.Slices ![0, 0, 270] S64x24x90
  shapeCasts_S64x24x90_S1536x90 : S64x24x90.ShapeCasts S1536x90
  inb_S360x90_S360x90_0_0 : ∀ a, (![0, 0] : Fin 2 → Nat) a + S360x90.size a ≤ S360x90.size a
  h_S360x90 : 0 < S360x90.numel
  shapeCasts_S360x90_S360x90 : S360x90.ShapeCasts S360x90
  h_S40x24x90 : 0 < S40x24x90.numel
  shapeCasts_S40x24x90_S40x24x90 : S40x24x90.ShapeCasts S40x24x90
  slices_S64x24x90_o0_0_0_S64x1x90 : S64x24x90.Slices ![0, 0, 0] S64x1x90
  shapeCasts_S64x1x90_S64x90 : S64x1x90.ShapeCasts S64x90
  slices_S40x24x90_o0_0_0_S40x1x90 : S40x24x90.Slices ![0, 0, 0] S40x1x90
  shapeCasts_S40x1x90_S40x90 : S40x1x90.ShapeCasts S40x90
  slices_S64x24x90_o0_1_0_S64x1x90 : S64x24x90.Slices ![0, 1, 0] S64x1x90
  slices_S40x24x90_o0_1_0_S40x1x90 : S40x24x90.Slices ![0, 1, 0] S40x1x90
  slices_S64x24x90_o0_2_0_S64x1x90 : S64x24x90.Slices ![0, 2, 0] S64x1x90
  slices_S40x24x90_o0_2_0_S40x1x90 : S40x24x90.Slices ![0, 2, 0] S40x1x90
  slices_S64x24x90_o0_3_0_S64x1x90 : S64x24x90.Slices ![0, 3, 0] S64x1x90
  slices_S40x24x90_o0_3_0_S40x1x90 : S40x24x90.Slices ![0, 3, 0] S40x1x90
  slices_S64x24x90_o0_4_0_S64x1x90 : S64x24x90.Slices ![0, 4, 0] S64x1x90
  slices_S40x24x90_o0_4_0_S40x1x90 : S40x24x90.Slices ![0, 4, 0] S40x1x90
  slices_S64x24x90_o0_5_0_S64x1x90 : S64x24x90.Slices ![0, 5, 0] S64x1x90
  slices_S40x24x90_o0_5_0_S40x1x90 : S40x24x90.Slices ![0, 5, 0] S40x1x90
  slices_S64x24x90_o0_6_0_S64x1x90 : S64x24x90.Slices ![0, 6, 0] S64x1x90
  slices_S40x24x90_o0_6_0_S40x1x90 : S40x24x90.Slices ![0, 6, 0] S40x1x90
  slices_S64x24x90_o0_7_0_S64x1x90 : S64x24x90.Slices ![0, 7, 0] S64x1x90
  slices_S40x24x90_o0_7_0_S40x1x90 : S40x24x90.Slices ![0, 7, 0] S40x1x90
  slices_S64x24x90_o0_8_0_S64x1x90 : S64x24x90.Slices ![0, 8, 0] S64x1x90
  slices_S40x24x90_o0_8_0_S40x1x90 : S40x24x90.Slices ![0, 8, 0] S40x1x90
  slices_S64x24x90_o0_9_0_S64x1x90 : S64x24x90.Slices ![0, 9, 0] S64x1x90
  slices_S40x24x90_o0_9_0_S40x1x90 : S40x24x90.Slices ![0, 9, 0] S40x1x90
  slices_S64x24x90_o0_10_0_S64x1x90 : S64x24x90.Slices ![0, 10, 0] S64x1x90
  slices_S40x24x90_o0_10_0_S40x1x90 : S40x24x90.Slices ![0, 10, 0] S40x1x90
  slices_S64x24x90_o0_11_0_S64x1x90 : S64x24x90.Slices ![0, 11, 0] S64x1x90
  slices_S40x24x90_o0_11_0_S40x1x90 : S40x24x90.Slices ![0, 11, 0] S40x1x90
  slices_S64x24x90_o0_12_0_S64x1x90 : S64x24x90.Slices ![0, 12, 0] S64x1x90
  slices_S40x24x90_o0_12_0_S40x1x90 : S40x24x90.Slices ![0, 12, 0] S40x1x90
  slices_S64x24x90_o0_13_0_S64x1x90 : S64x24x90.Slices ![0, 13, 0] S64x1x90
  slices_S40x24x90_o0_13_0_S40x1x90 : S40x24x90.Slices ![0, 13, 0] S40x1x90
  slices_S64x24x90_o0_14_0_S64x1x90 : S64x24x90.Slices ![0, 14, 0] S64x1x90
  slices_S40x24x90_o0_14_0_S40x1x90 : S40x24x90.Slices ![0, 14, 0] S40x1x90
  slices_S64x24x90_o0_15_0_S64x1x90 : S64x24x90.Slices ![0, 15, 0] S64x1x90
  slices_S40x24x90_o0_15_0_S40x1x90 : S40x24x90.Slices ![0, 15, 0] S40x1x90
  slices_S64x24x90_o0_16_0_S64x1x90 : S64x24x90.Slices ![0, 16, 0] S64x1x90
  slices_S40x24x90_o0_16_0_S40x1x90 : S40x24x90.Slices ![0, 16, 0] S40x1x90
  slices_S64x24x90_o0_17_0_S64x1x90 : S64x24x90.Slices ![0, 17, 0] S64x1x90
  slices_S40x24x90_o0_17_0_S40x1x90 : S40x24x90.Slices ![0, 17, 0] S40x1x90
  slices_S64x24x90_o0_18_0_S64x1x90 : S64x24x90.Slices ![0, 18, 0] S64x1x90
  slices_S40x24x90_o0_18_0_S40x1x90 : S40x24x90.Slices ![0, 18, 0] S40x1x90
  slices_S64x24x90_o0_19_0_S64x1x90 : S64x24x90.Slices ![0, 19, 0] S64x1x90
  slices_S40x24x90_o0_19_0_S40x1x90 : S40x24x90.Slices ![0, 19, 0] S40x1x90
  slices_S64x24x90_o0_20_0_S64x1x90 : S64x24x90.Slices ![0, 20, 0] S64x1x90
  slices_S40x24x90_o0_20_0_S40x1x90 : S40x24x90.Slices ![0, 20, 0] S40x1x90
  slices_S64x24x90_o0_21_0_S64x1x90 : S64x24x90.Slices ![0, 21, 0] S64x1x90
  slices_S40x24x90_o0_21_0_S40x1x90 : S40x24x90.Slices ![0, 21, 0] S40x1x90
  slices_S64x24x90_o0_22_0_S64x1x90 : S64x24x90.Slices ![0, 22, 0] S64x1x90
  slices_S40x24x90_o0_22_0_S40x1x90 : S40x24x90.Slices ![0, 22, 0] S40x1x90
  slices_S64x24x90_o0_23_0_S64x1x90 : S64x24x90.Slices ![0, 23, 0] S64x1x90
  slices_S40x24x90_o0_23_0_S40x1x90 : S40x24x90.Slices ![0, 23, 0] S40x1x90
  inb_S40_S40_0 : ∀ a, (![0] : Fin 1 → Nat) a + S40.size a ≤ S40.size a
  h_S40 : 0 < S40.numel
  shapeCasts_S40_S1x40 : S40.ShapeCasts S1x40
  broadcasts_S1x40_S64x40 : S1x40.Broadcasts S64x40
  shapeCasts_S1024x40_S1024x4x10 : S1024x40.ShapeCasts S1024x4x10
  reducesTo_S1024x4x10_S1024x4_d2 : S1024x4x10.ReducesTo [2] S1024x4
  h_S_ : 0 < S_.numel
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  bcast_S1024x4x1_S1024x4x10_0_1_2 : S1024x4x1.BroadcastsInDim S1024x4x10 (![0, 1, 2] : Fin 3 → Fin S1024x4x10.rank)
  dot_S1536x180_S360x180_S1536x360_1_1_0_0_n_n_wf : DotDims.WF S1536x180 S360x180 S1536x360 [1] [1] [0] [0] [] []
  dot_S1536x90_S360x90_S1536x360_1_1_0_0_n_n_wf : DotDims.WF S1536x90 S360x90 S1536x360 [1] [1] [0] [0] [] []
  dot_S64x90_S40x90_S64x40_1_1_0_0_n_n_wf : DotDims.WF S64x90 S40x90 S64x40 [1] [1] [0] [0] [] []
  hrank0 : 0 < grid0.rank
  k0_mult1_dvd : ∀ i : grid0.Coords, 8 ∣ (k0_mult1 i).toNat
  k0_off1_inb : ∀ i : grid0.Coords, ∀ a, (k0_off1 i) a + S40x24x90.size a ≤ S40x240x90.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x24x180.size a ≤ S1024x240x180.size a
  hwx0_0 : ∀ i : grid0.Coords, EltTy.bits .bf16 = 32 ∨ (Rect.block (s := S1024x240x180) S64x24x180.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S360x180.size a ≤ S360x180.size a
  hwx0_1 : ∀ i : grid0.Coords, EltTy.bits .bf16 = 32 ∨ (Rect.block (s := S360x180) S360x180.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S360.size a ≤ S360.size a
  hwx0_2 : ∀ i : grid0.Coords, EltTy.bits .f32 = 32 ∨ (Rect.block (s := S360) S360.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S360x90.size a ≤ S360x90.size a
  hwx0_3 : ∀ i : grid0.Coords, EltTy.bits .bf16 = 32 ∨ (Rect.block (s := S360x90) S360x90.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S360.size a ≤ S360.size a
  hwx0_4 : ∀ i : grid0.Coords, EltTy.bits .f32 = 32 ∨ (Rect.block (s := S360) S360.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x240x90.size a ≤ S40x240x90.size a
  hwx0_5 : ∀ i : grid0.Coords, EltTy.bits .f32 = 32 ∨ (Rect.block (s := S40x240x90) S40x240x90.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40.size a ≤ S40.size a
  hwx0_6 : ∀ i : grid0.Coords, EltTy.bits .f32 = 32 ∨ (Rect.block (s := S40) S40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x40.size a ≤ S1024x40.size a
  hwx0_7 : ∀ i : grid0.Coords, EltTy.bits .f32 = 32 ∨ (Rect.block (s := S1024x40) S64x40.size (cc0_transform_7 i) (hinb0_7 i)).WholeWords (EltTy.packing .f32)

variable [Facts₀]

def dot_S1536x180_S360x180_S1536x360_1_1_0_0_n_n : DotDims S1536x180 S360x180 S1536x360 where
  lhsContracting := [1]
  rhsContracting := [1]
  lhsNonContracting := [0]
  rhsNonContracting := [0]
  lhsBatch := []
  rhsBatch := []
  wf := dot_S1536x180_S360x180_S1536x360_1_1_0_0_n_n_wf
def dot_S1536x90_S360x90_S1536x360_1_1_0_0_n_n : DotDims S1536x90 S360x90 S1536x360 where
  lhsContracting := [1]
  rhsContracting := [1]
  lhsNonContracting := [0]
  rhsNonContracting := [0]
  lhsBatch := []
  rhsBatch := []
  wf := dot_S1536x90_S360x90_S1536x360_1_1_0_0_n_n_wf
def dot_S64x90_S40x90_S64x40_1_1_0_0_n_n : DotDims S64x90 S40x90 S64x40 where
  lhsContracting := [1]
  rhsContracting := [1]
  lhsNonContracting := [0]
  rhsNonContracting := [0]
  lhsBatch := []
  rhsBatch := []
  wf := dot_S64x90_S40x90_S64x40_1_1_0_0_n_n_wf

abbrev win0_0 : Pipeline.Window sig grid0 :=
  Pipeline.Window.ofSpec (Memref.whole main_v2) S64x24x180.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S360x180.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S360.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S360x90.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S360.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S40x240x90.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S64x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x3x60x240 : Shape := ⟨4, ![1024, 3, 60, 240]⟩
abbrev S360x180 : Shape := ⟨2, ![360, 180]⟩
abbrev S360 : Shape := ⟨1, ![360]⟩
abbrev S360x90 : Shape := ⟨2, ![360, 90]⟩
abbrev S40x21600 : Shape := ⟨2, ![40, 21600]⟩
abbrev S40 : Shape := ⟨1, ![40]⟩
abbrev S1024x240x3x60 : Shape := ⟨4, ![1024, 240, 3, 60]⟩
abbrev S1024x240x180 : Shape := ⟨3, ![1024, 240, 180]⟩
abbrev S1024x240x360 : Shape := ⟨3, ![1024, 240, 360]⟩
abbrev S1x1x360 : Shape := ⟨3, ![1, 1, 360]⟩
abbrev S1024x240x90 : Shape := ⟨3, ![1024, 240, 90]⟩
abbrev S_ : Shape := ⟨0, ![]⟩
abbrev S1024x21600 : Shape := ⟨2, ![1024, 21600]⟩
abbrev S21600x40 : Shape := ⟨2, ![21600, 40]⟩
abbrev S1024x40 : Shape := ⟨2, ![1024, 40]⟩
abbrev S1x40 : Shape := ⟨2, ![1, 40]⟩
abbrev S1024x4x10 : Shape := ⟨3, ![1024, 4, 10]⟩
abbrev S1024x4 : Shape := ⟨2, ![1024, 4]⟩
abbrev S1024x4x1 : Shape := ⟨3, ![1024, 4, 1]⟩

abbrev nBuf : Space → Nat
  | .hbm => 102
  | .vmem => 0
  | .smem => 0
  | _ => 0

abbrev bufTy : (tb : Table) → Fin (tcTables nBuf tb) → BufTy
  | .hbm, ⟨0, _⟩ => ⟨S1024x3x60x240, .f32⟩
  | .hbm, ⟨1, _⟩ => ⟨S360x180, .f32⟩
  | .hbm, ⟨2, _⟩ => ⟨S360, .f32⟩
  | .hbm, ⟨3, _⟩ => ⟨S360, .f32⟩
  | .hbm, ⟨4, _⟩ => ⟨S360x90, .f32⟩
  | .hbm, ⟨5, _⟩ => ⟨S360, .f32⟩
  | .hbm, ⟨6, _⟩ => ⟨S360, .f32⟩
  | .hbm, ⟨7, _⟩ => ⟨S40x21600, .f32⟩
  | .hbm, ⟨8, _⟩ => ⟨S40, .f32⟩
  | .hbm, ⟨9, _⟩ => ⟨S1024x240x3x60, .f32⟩
  | .hbm, ⟨10, _⟩ => ⟨S1024x240x180, .f32⟩
  | .hbm, ⟨11, _⟩ => ⟨S1024x240x360, .f32⟩
  | .hbm, ⟨12, _⟩ => ⟨S1x1x360, .f32⟩
  | .hbm, ⟨13, _⟩ => ⟨S1024x240x360, .f32⟩
  | .hbm, ⟨14, _⟩ => ⟨S1024x240x360, .f32⟩
  | .hbm, ⟨15, _⟩ => ⟨S1x1x360, .f32⟩
  | .hbm, ⟨16, _⟩ => ⟨S1024x240x360, .f32⟩
  | .hbm, ⟨17, _⟩ => ⟨S1024x240x360, .f32⟩
  | .hbm, ⟨18, _⟩ => ⟨S1024x240x90, .f32⟩
  | .hbm, ⟨19, _⟩ => ⟨S1024x240x90, .f32⟩
  | .hbm, ⟨20, _⟩ => ⟨S1024x240x90, .f32⟩
  | .hbm, ⟨21, _⟩ => ⟨S1024x240x90, .f32⟩
  | .hbm, ⟨22, _⟩ => ⟨S1024x240x90, .f32⟩
  | .hbm, ⟨23, _⟩ => ⟨S1024x240x90, .f32⟩
  | .hbm, ⟨24, _⟩ => ⟨S_, .f32⟩
  | .hbm, ⟨25, _⟩ => ⟨S1024x240x90, .f32⟩
  | .hbm, ⟨26, _⟩ => ⟨S1024x240x90, .f32⟩
  | .hbm, ⟨27, _⟩ => ⟨S_, .f32⟩
  | .hbm, ⟨28, _⟩ => ⟨S1024x240x90, .f32⟩
  | .hbm, ⟨29, _⟩ => ⟨S1024x240x90, .f32⟩
  | .hbm, ⟨30, _⟩ => ⟨S1024x240x90, .f32⟩
  | .hbm, ⟨31, _⟩ => ⟨S1024x240x90, .f32⟩
  | .hbm, ⟨32, _⟩ => ⟨S1024x240x90, .f32⟩
  | .hbm, ⟨33, _⟩ => ⟨S1024x240x90, .f32⟩
  | .hbm, ⟨34, _⟩ => ⟨S_, .f32⟩
  | .hbm, ⟨35, _⟩ => ⟨S1024x240x90, .f32⟩
  | .hbm, ⟨36, _⟩ => ⟨S1024x240x90, .f32⟩
  | .hbm, ⟨37, _⟩ => ⟨S_, .f32⟩
  | .hbm, ⟨38, _⟩ => ⟨S1024x240x90, .f32⟩
  | .hbm, ⟨39, _⟩ => ⟨S1024x240x90, .f32⟩
  | .hbm, ⟨40, _⟩ => ⟨S1024x240x90, .f32⟩
  | .hbm, ⟨41, _⟩ => ⟨S1024x240x90, .f32⟩
  | .hbm, ⟨42, _⟩ => ⟨S1024x240x90, .f32⟩
  | .hbm, ⟨43, _⟩ => ⟨S1024x240x90, .f32⟩
  | .hbm, ⟨44, _⟩ => ⟨S_, .f32⟩
  | .hbm, ⟨45, _⟩ => ⟨S1024x240x90, .f32⟩
  | .hbm, ⟨46, _⟩ => ⟨S1024x240x90, .f32⟩
  | .hbm, ⟨47, _⟩ => ⟨S_, .f32⟩
  | .hbm, ⟨48, _⟩ => ⟨S1024x240x90, .f32⟩
  | .hbm, ⟨49, _⟩ => ⟨S1024x240x90, .f32⟩
  | .hbm, ⟨50, _⟩ => ⟨S1024x240x360, .f32⟩
  | .hbm, ⟨51, _⟩ => ⟨S1x1x360, .f32⟩
  | .hbm, ⟨52, _⟩ => ⟨S1024x240x360, .f32⟩
  | .hbm, ⟨53, _⟩ => ⟨S1024x240x360, .f32⟩
  | .hbm, ⟨54, _⟩ => ⟨S1x1x360, .f32⟩
  | .hbm, ⟨55, _⟩ => ⟨S1024x240x360, .f32⟩
  | .hbm, ⟨56, _⟩ => ⟨S1024x240x360, .f32⟩
  | .hbm, ⟨57, _⟩ => ⟨S1024x240x90, .f32⟩
  | .hbm, ⟨58, _⟩ => ⟨S1024x240x90, .f32⟩
  | .hbm, ⟨59, _⟩ => ⟨S1024x240x90, .f32⟩
  | .hbm, ⟨60, _⟩ => ⟨S1024x240x90, .f32⟩
  | .hbm, ⟨61, _⟩ => ⟨S1024x240x90, .f32⟩
  | .hbm, ⟨62, _⟩ => ⟨S1024x240x90, .f32⟩
  | .hbm, ⟨63, _⟩ => ⟨S_, .f32⟩
  | .hbm, ⟨64, _⟩ => ⟨S1024x240x90, .f32⟩
  | .hbm, ⟨65, _⟩ => ⟨S1024x240x90, .f32⟩
  | .hbm, ⟨66, _⟩ => ⟨S_, .f32⟩
  | .hbm, ⟨67, _⟩ => ⟨S1024x240x90, .f32⟩
  | .hbm, ⟨68, _⟩ => ⟨S1024x240x90, .f32⟩
  | .hbm, ⟨69, _⟩ => ⟨S1024x240x90, .f32⟩
  | .hbm, ⟨70, _⟩ => ⟨S1024x240x90, .f32⟩
  | .hbm, ⟨71, _⟩ => ⟨S1024x240x90, .f32⟩
  | .hbm, ⟨72, _⟩ => ⟨S1024x240x90, .f32⟩
  | .hbm, ⟨73, _⟩ => ⟨S_, .f32⟩
  | .hbm, ⟨74, _⟩ => ⟨S1024x240x90, .f32⟩
  | .hbm, ⟨75, _⟩ => ⟨S1024x240x90, .f32⟩
  | .hbm, ⟨76, _⟩ => ⟨S_, .f32⟩
  | .hbm, ⟨77, _⟩ => ⟨S1024x240x90, .f32⟩
  | .hbm, ⟨78, _⟩ => ⟨S1024x240x90, .f32⟩
  | .hbm, ⟨79, _⟩ => ⟨S1024x240x90, .f32⟩
  | .hbm, ⟨80, _⟩ => ⟨S1024x240x90, .f32⟩
  | .hbm, ⟨81, _⟩ => ⟨S1024x21600, .f32⟩
  | .hbm, ⟨82, _⟩ => ⟨S21600x40, .f32⟩
  | .hbm, ⟨83, _⟩ => ⟨S1024x40, .f32⟩
  | .hbm, ⟨84, _⟩ => ⟨S1x40, .f32⟩
  | .hbm, ⟨85, _⟩ => ⟨S1024x40, .f32⟩
  | .hbm, ⟨86, _⟩ => ⟨S1024x40, .f32⟩
  | .hbm, ⟨87, _⟩ => ⟨S1024x4x10, .f32⟩
  | .hbm, ⟨88, _⟩ => ⟨S_, .f32⟩
  | .hbm, ⟨89, _⟩ => ⟨S1024x4, .f32⟩
  | .hbm, ⟨90, _⟩ => ⟨S_, .f32⟩
  | .hbm, ⟨91, _⟩ => ⟨S1024x4, .f32⟩
  | .hbm, ⟨92, _⟩ => ⟨S1024x4, .f32⟩
  | .hbm, ⟨93, _⟩ => ⟨S1024x4x1, .f32⟩
  | .hbm, ⟨94, _⟩ => ⟨S1024x4x10, .f32⟩
  | .hbm, ⟨95, _⟩ => ⟨S1024x4x10, .f32⟩
  | .hbm, ⟨96, _⟩ => ⟨S1024x4x10, .f32⟩
  | .hbm, ⟨97, _⟩ => ⟨S_, .f32⟩
  | .hbm, ⟨98, _⟩ => ⟨S1024x4, .f32⟩
  | .hbm, ⟨99, _⟩ => ⟨S1024x4x1, .f32⟩
  | .hbm, ⟨100, _⟩ => ⟨S1024x4x10, .f32⟩
  | .hbm, ⟨101, _⟩ => ⟨S1024x4x10, .f32⟩
  | _, _ => ⟨S1024x3x60x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_11 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]

class Facts₀ : Prop where
  transposes_S1024x3x60x240_S1024x240x3x60_0_3_1_2 : S1024x3x60x240.Transposes [0, 3, 1, 2] S1024x240x3x60
  shapeCasts_S1024x240x3x60_S1024x240x180 : S1024x240x3x60.ShapeCasts S1024x240x180
  bcast_S360_S1x1x360_2 : S360.BroadcastsInDim S1x1x360 (![2] : Fin 1 → Fin S1x1x360.rank)
  bcast_S1x1x360_S1024x240x360_0_1_2 : S1x1x360.BroadcastsInDim S1024x240x360 (![0, 1, 2] : Fin 3 → Fin S1024x240x360.rank)
  slices_S1024x240x360_S1024x240x90_0_0_0 : S1024x240x360.Slices ![0, 0, 0] S1024x240x90
  slices_S1024x240x360_S1024x240x90_0_0_90 : S1024x240x360.Slices ![0, 0, 90] S1024x240x90
  slices_S1024x240x360_S1024x240x90_0_0_180 : S1024x240x360.Slices ![0, 0, 180] S1024x240x90
  slices_S1024x240x360_S1024x240x90_0_0_270 : S1024x240x360.Slices ![0, 0, 270] S1024x240x90
  bcast_S_S1024x240x90 : S_.BroadcastsInDim S1024x240x90 (![] : Fin 0 → Fin S1024x240x90.rank)
  shapeCasts_S1024x240x90_S1024x21600 : S1024x240x90.ShapeCasts S1024x21600
  transposes_S40x21600_S21600x40_1_0 : S40x21600.Transposes [1, 0] S21600x40
  bcast_S40_S1x40_1 : S40.BroadcastsInDim S1x40 (![1] : Fin 1 → Fin S1x40.rank)
  bcast_S1x40_S1024x40_0_1 : S1x40.BroadcastsInDim S1024x40 (![0, 1] : Fin 2 → Fin S1024x40.rank)
  shapeCasts_S1024x40_S1024x4x10 : S1024x40.ShapeCasts S1024x4x10
  reducesTo_S1024x4x10_S1024x4_d2 : S1024x4x10.ReducesTo [2] S1024x4
  h_S_ : 0 < S_.numel
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  bcast_S1024x4x1_S1024x4x10_0_1_2 : S1024x4x1.BroadcastsInDim S1024x4x10 (![0, 1, 2] : Fin 3 → Fin S1024x4x10.rank)
  dot_S1024x240x180_S360x180_S1024x240x360_2_1_01_0_n_n_wf : DotDims.WF S1024x240x180 S360x180 S1024x240x360 [2] [1] [0, 1] [0] [] []
  dot_S1024x240x90_S360x90_S1024x240x360_2_1_01_0_n_n_wf : DotDims.WF S1024x240x90 S360x90 S1024x240x360 [2] [1] [0, 1] [0] [] []
  dot_S1024x21600_S21600x40_S1024x40_1_0_0_1_n_n_wf : DotDims.WF S1024x21600 S21600x40 S1024x40 [1] [0] [0] [1] [] []

variable [Facts₀]

def dot_S1024x240x180_S360x180_S1024x240x360_2_1_01_0_n_n : DotDims S1024x240x180 S360x180 S1024x240x360 where
  lhsContracting := [2]
  rhsContracting := [1]
  lhsNonContracting := [0, 1]
  rhsNonContracting := [0]
  lhsBatch := []
  rhsBatch := []
  wf := dot_S1024x240x180_S360x180_S1024x240x360_2_1_01_0_n_n_wf
def dot_S1024x240x90_S360x90_S1024x240x360_2_1_01_0_n_n : DotDims S1024x240x90 S360x90 S1024x240x360 where
  lhsContracting := [2]
  rhsContracting := [1]
  lhsNonContracting := [0, 1]
  rhsNonContracting := [0]
  lhsBatch := []
  rhsBatch := []
  wf := dot_S1024x240x90_S360x90_S1024x240x360_2_1_01_0_n_n_wf
def dot_S1024x21600_S21600x40_S1024x40_1_0_0_1_n_n : DotDims S1024x21600 S21600x40 S1024x40 where
  lhsContracting := [1]
  rhsContracting := [0]
  lhsNonContracting := [0]
  rhsNonContracting := [1]
  lhsBatch := []
  rhsBatch := []
  wf := dot_S1024x21600_S21600x40_S1024x40_1_0_0_1_n_n_wf

class Facts : Prop extends Facts₀ where

variable [Facts]
-- ==== Proof.Body.lean ====
/-
  What the kernel body leaves behind at a grid point, case by case, as pure terms of the blocks it loads.

  The body adds one tile's contribution to the projection into a [64, 40] accumulator that lives in scratch
  memory across the ten time tiles of a batch tile. At the first time tile the accumulator is zeroed first; at
  the last the accumulator plus the projection bias is written to the output block.
-/
import proofs.«167840_j8718783611481_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 24 time steps of the projection table that a point at time tile `i 1` loads from the resident table. -/
def wld (i : grid0.Coords) (x5 : Vec F S40x240x90 .f32) : Vec F S40x24x90 .f32 :=
  View.ld x5 (Rect.unit (s := S40x240x90) (k0_off1 i) S40x24x90.size (k0_off1_inb i))

/-- The accumulator after one point: what it held plus this tile's contribution (the body's stored payload,
    over the blocks loaded). -/
def stepOf (acc : Vec F S64x40 .f32) (x0 : Vec F S64x24x180 .bf16) (x1 : Vec F S360x180 .bf16) (x2 : Vec F S360 .f32)
    (x3 : Vec F S360x90 .bf16) (x4 : Vec F S360 .f32) (w : Vec F S40x24x90 .f32) : FVec F S64x40 .f32 :=
  k0_pay1
    (k0_pay14 (k0_pay7 (k0_pay5 x0 x1 x2 x3 x4) (k0_pay6 x0 x1 x2 x3 x4)) (k0_pay8 w)
      (k0_pay12 (k0_pay7 (k0_pay5 x0 x1 x2 x3 x4) (k0_pay6 x0 x1 x2 x3 x4)) (k0_pay8 w) (k0_pay9 (k0_pay5 x0 x1 x2 x3 x4) (k0_pay6 x0 x1 x2 x3 x4) w) (k0_pay10 (k0_pay5 x0 x1 x2 x3 x4) (k0_pay6 x0 x1 x2 x3 x4)) (k0_pay11 w) (constant S64x40 .f32 0x00000000#32))
      (k0_pay13 (k0_pay7 (k0_pay5 x0 x1 x2 x3 x4) (k0_pay6 x0 x1 x2 x3 x4))))
    (k0_pay15 (k0_pay7 (k0_pay5 x0 x1 x2 x3 x4) (k0_pay6 x0 x1 x2 x3 x4)) (k0_pay8 w)) acc

/-- A middle point: the scratch holds the old accumulator plus the tile's contribution. -/
theorem scratch_B (c : Dev nD) (i : grid0.Coords) (arg2 : Memref sig .tc .vmem S64x24x180 .bf16) (harg2 : arg2.IsWhole) (arg3 : Memref sig .tc .vmem S360x180 .bf16) (harg3 : arg3.IsWhole) (arg4 : Memref sig .tc .vmem S360 .f32) (harg4 : arg4.IsWhole) (arg5 : Memref sig .tc .vmem S360x90 .bf16) (harg5 : arg5.IsWhole) (arg6 : Memref sig .tc .vmem S360 .f32) (harg6 : arg6.IsWhole) (arg7 : Memref sig .tc .vmem S40x240x90 .f32) (harg7 : arg7.IsWhole) (arg8 : Memref sig .tc .vmem S40 .f32) (harg8 : arg8.IsWhole) (arg9 : Memref sig .tc .vmem S64x40 .f32) (harg9 : arg9.IsWhole) (arg10 : Memref sig .tc .vmem S64x40 .f32) (harg10 : arg10.IsWhole) (hc0 : ¬cond0_0 i) (hc1 : ¬cond0_1 i) (x0 : Vec F S64x24x180 .bf16) (x1 : Vec F S360x180 .bf16) (x2 : Vec F S360 .f32) (x3 : Vec F S360x90 .bf16) (x4 : Vec F S360 .f32) (x5 : Vec F S40x240x90 .f32) (x6 : Vec F S40 .f32) (xs0 : Vec F S64x40 .f32) :
    sout0_B_0 c i arg2 harg2 arg3 harg3 arg4 harg4 arg5 harg5 arg6 harg6 arg7 harg7 arg8 harg8 arg9 harg9 arg10 harg10 hc0 hc1 x0 x1 x2 x3 x4 x5 x6 xs0 = stepOf xs0 x0 x1 x2 x3 x4 (wld i x5) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg10.read_unread, View.ld_unit_zero (S := S64x24x180) hz3,
    View.ld_unit_zero (S := S360x180) hz2, View.ld_unit_zero (S := S360) hz1, View.ld_unit_zero (S := S360x90) hz2,
    View.ld_unit_zero (S := S64x40) hz2, View.ld_unit_zero (S := S40) hz1]
  rfl

/-- The first time tile of a batch tile: the scratch is zeroed, then holds zero plus the tile's contribution. -/
theorem scratch_A (c : Dev nD) (i : grid0.Coords) (arg2 : Memref sig .tc .vmem S64x24x180 .bf16) (harg2 : arg2.IsWhole) (arg3 : Memref sig .tc .vmem S360x180 .bf16) (harg3 : arg3.IsWhole) (arg4 : Memref sig .tc .vmem S360 .f32) (harg4 : arg4.IsWhole) (arg5 : Memref sig .tc .vmem S360x90 .bf16) (harg5 : arg5.IsWhole) (arg6 : Memref sig .tc .vmem S360 .f32) (harg6 : arg6.IsWhole) (arg7 : Memref sig .tc .vmem S40x240x90 .f32) (harg7 : arg7.IsWhole) (arg8 : Memref sig .tc .vmem S40 .f32) (harg8 : arg8.IsWhole) (arg9 : Memref sig .tc .vmem S64x40 .f32) (harg9 : arg9.IsWhole) (arg10 : Memref sig .tc .vmem S64x40 .f32) (harg10 : arg10.IsWhole) (hc0 : cond0_0 i) (hc1 : ¬cond0_1 i) (x0 : Vec F S64x24x180 .bf16) (x1 : Vec F S360x180 .bf16) (x2 : Vec F S360 .f32) (x3 : Vec F S360x90 .bf16) (x4 : Vec F S360 .f32) (x5 : Vec F S40x240x90 .f32) (x6 : Vec F S40 .f32) :
    sout0_A_0 c i arg2 harg2 arg3 harg3 arg4 harg4 arg5 harg5 arg6 harg6 arg7 harg7 arg8 harg8 arg9 harg9 arg10 harg10 hc0 hc1 x0 x1 x2 x3 x4 x5 x6 = stepOf (k0_pay3 (F := F)) x0 x1 x2 x3 x4 (wld i x5) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S64x40) hz2, View.readCov_unit_zero (S := S64x40) _ hz2]
  simp only [View.readAt_eq_ld, harg2.read_unread, harg3.read_unread, harg4.read_unread, harg5.read_unread,
    harg6.read_unread, harg7.read_unread, harg8.read_unread, harg10.read_unread, View.ld_unit_zero (S := S64x24x180) hz3,
    View.ld_unit_zero (S := S360x180) hz2, View.ld_unit_zero (S := S360) hz1, View.ld_unit_zero (S := S360x90) hz2,
    View.ld_unit_zero (S := S64x40) hz2, View.ld_unit_zero (S := S40) hz1]
  rfl

/-- The last time tile: the scratch as at a middle point, -/
theorem scratch_C (c : Dev nD) (i : grid0.Coords) (arg2 : Memref sig .tc .vmem S64x24x180 .bf16) (harg2 : arg2.IsWhole) (arg3 : Memref sig .tc .vmem S360x180 .bf16) (harg3 : arg3.IsWhole) (arg4 : Memref sig .tc .vmem S360 .f32) (harg4 : arg4.IsWhole) (arg5 : Memref sig .tc .vmem S360x90 .bf16) (harg5 : arg5.IsWhole) (arg6 : Memref sig .tc .vmem S360 .f32) (harg6 : arg6.IsWhole) (arg7 : Memref sig .tc .vmem S40x240x90 .f32) (harg7 : arg7.IsWhole) (arg8 : Memref sig .tc .vmem S40 .f32) (harg8 : arg8.IsWhole) (arg9 : Memref sig .tc .vmem S64x40 .f32) (harg9 : arg9.IsWhole) (arg10 : Memref sig .tc .vmem S64x40 .f32) (harg10 : arg10.IsWhole) (hc0 : ¬cond0_0 i) (hc1 : cond0_1 i) (x0 : Vec F S64x24x180 .bf16) (x1 : Vec F S360x180 .bf16) (x2 : Vec F S360 .f32) (x3 : Vec F S360x90 .bf16) (x4 : Vec F S360 .f32) (x5 : Vec F S40x240x90 .f32) (x6 : Vec F S40 .f32) (xs0 : Vec F S64x40 .f32) :
    sout0_C_0 c i arg2 harg2 arg3 harg3 arg4 harg4 arg5 harg5 arg6 harg6 arg7 harg7 arg8 harg8 arg9 harg9 arg10 harg10 hc0 hc1 x0 x1 x2 x3 x4 x5 x6 xs0 = stepOf xs0 x0 x1 x2 x3 x4 (wld i x5) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg8.read_unread, harg10.read_unread, View.ld_unit_zero (S := S64x24x180) hz3,
    View.ld_unit_zero (S := S360x180) hz2, View.ld_unit_zero (S := S360) hz1, View.ld_unit_zero (S := S360x90) hz2,
    View.ld_unit_zero (S := S64x40) hz2, View.ld_unit_zero (S := S40) hz1]
  rfl

/-- and the output block holds the finished accumulator plus the projection bias on every row. -/
theorem out_C (c : Dev nD) (i : grid0.Coords) (arg2 : Memref sig .tc .vmem S64x24x180 .bf16) (harg2 : arg2.IsWhole) (arg3 : Memref sig .tc .vmem S360x180 .bf16) (harg3 : arg3.IsWhole) (arg4 : Memref sig .tc .vmem S360 .f32) (harg4 : arg4.IsWhole) (arg5 : Memref sig .tc .vmem S360x90 .bf16) (harg5 : arg5.IsWhole) (arg6 : Memref sig .tc .vmem S360 .f32) (harg6 : arg6.IsWhole) (arg7 : Memref sig .tc .vmem S40x240x90 .f32) (harg7 : arg7.IsWhole) (arg8 : Memref sig .tc .vmem S40 .f32) (harg8 : arg8.IsWhole) (arg9 : Memref sig .tc .vmem S64x40 .f32) (harg9 : arg9.IsWhole) (arg10 : Memref sig .tc .vmem S64x40 .f32) (harg10 : arg10.IsWhole) (hc0 : ¬cond0_0 i) (hc1 : cond0_1 i) (x0 : Vec F S64x24x180 .bf16) (x1 : Vec F S360x180 .bf16) (x2 : Vec F S360 .f32) (x3 : Vec F S360x90 .bf16) (x4 : Vec F S360 .f32) (x5 : Vec F S40x240x90 .f32) (x6 : Vec F S40 .f32) (xs0 : Vec F S64x40 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 (stepOf xs0 x0 x1 x2 x3 x4 (wld i x5)) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2, View.readCov_unit_zero (S := S64x40) _ hz2]
  simp only [View.readAt_eq_ld, harg2.read_unread, harg3.read_unread, harg4.read_unread, harg5.read_unread,
    harg6.read_unread, harg7.read_unread, harg8.read_unread, harg10.read_unread, View.ld_unit_zero (S := S64x24x180) hz3,
    View.ld_unit_zero (S := S360x180) hz2, View.ld_unit_zero (S := S360) hz1, View.ld_unit_zero (S := S360x90) hz2,
    View.ld_unit_zero (S := S64x40) hz2, View.ld_unit_zero (S := S40) hz1]
  rfl

end Cert.KernelIdeal.Body

end
-- ==== Proof.Spec.lean ====
/-
  The function both programs compute, written once.

  A row of 180 input features goes through two LSTM cells started from the zero state (so the forget
  gate never contributes): gate pre-activations are a matrix-vector product plus a bias, the cell output is
  sigmoid(o) * tanh(sigmoid(i) * tanh(g)), and the first cell's output is passed through one more sigmoid
  before it feeds the second. The projection contracts the second cell's outputs of all 240 time steps
  and 90 hidden units of a batch row against one row of the weight table, and adds a bias.

  The one law that is not a re-indexing: a sum over the 21600 = 240 * 90 flattened positions is the double
  sum over (time step, hidden unit), and a sum over 240 time steps is the sum over 10 tiles of 24.
  Both are regroupings of a finite sum in a commutative monoid, so they hold on the extended reals with no
  finiteness assumption.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The gate pre-activations of one row: `W v + b`, the four gates' 90 lanes side by side. -/
def gates {n : ℕ} (v : Fin n → EReal) (W : Fin 360 → Fin n → EReal) (b : Fin 360 → EReal) (j : Fin 360) : EReal :=
  (∑ k : Fin n, v k * W j k) + b j

/-- Lane `h` of the input gate, the candidate, and the output gate among the 360 pre-activations (the forget
    gate's lanes 90..179 are never read: the previous cell state is zero). -/
def laneI (h : Fin 90) : Fin 360 := ⟨h.val, by have := h.isLt; omega⟩
def laneG (h : Fin 90) : Fin 360 := ⟨180 + h.val, by have := h.isLt; omega⟩
def laneO (h : Fin 90) : Fin 360 := ⟨270 + h.val, by have := h.isLt; omega⟩

/-- An LSTM cell's output from the zero state: `sigmoid(o) * tanh(sigmoid(i) * tanh(g))`. -/
def cell (g : Fin 360 → EReal) (h : Fin 90) : EReal :=
  Ideal.logistic (g (laneO h)) * Ideal.tanh (Ideal.logistic (g (laneI h)) * Ideal.tanh (g (laneG h)))

/-- The second cell's output row from an input row: cell, sigmoid, cell. -/
def hidden (v : Fin 180 → EReal) (W1 : Fin 360 → Fin 180 → EReal) (b1 : Fin 360 → EReal)
    (W2 : Fin 360 → Fin 90 → EReal) (b2 : Fin 360 → EReal) : Fin 90 → EReal :=
  cell (gates (fun k => Ideal.logistic (cell (gates v W1 b1) k)) W2 b2)

abbrev SXe : Shape := ⟨3, ![1024, 240, 180]⟩
abbrev SW1 : Shape := ⟨2, ![360, 180]⟩
abbrev SB : Shape := ⟨1, ![360]⟩
abbrev SW2 : Shape := ⟨2, ![360, 90]⟩
abbrev SW3 : Shape := ⟨3, ![40, 240, 90]⟩
abbrev SB3 : Shape := ⟨1, ![40]⟩
abbrev SOut : Shape := ⟨2, ![1024, 40]⟩

/-- The second cell's output at batch row `B`, time step `T`. -/
def hid (xe : SXe.Idx → EReal) (w1 : SW1.Idx → EReal) (b1 : SB.Idx → EReal) (w2 : SW2.Idx → EReal)
    (b2 : SB.Idx → EReal) (B : Fin 1024) (T : Fin 240) : Fin 90 → EReal :=
  hidden (fun f => xe (ix3 B T f)) (fun j f => w1 (ix2 j f)) (fun j => b1 (ix1 j))
    (fun j k => w2 (ix2 j k)) (fun j => b2 (ix1 j))

/-- The projection before the softmax: every (time step, hidden unit) of a batch row against the weight table. -/
def proj (xe : SXe.Idx → EReal) (w1 : SW1.Idx → EReal) (b1 : SB.Idx → EReal) (w2 : SW2.Idx → EReal)
    (b2 : SB.Idx → EReal) (w3 : SW3.Idx → EReal) (b3 : SB3.Idx → EReal) (i : SOut.Idx) : EReal :=
  (∑ T : Fin 240, ∑ h : Fin 90, hid xe w1 b1 w2 b2 (i 0) T h * w3 (ix3 (i 1) T h)) + b3 (ix1 (i 1))

/-! ## Regrouping a finite sum -/

/-- Position `b * a' + r` of an axis of extent `a * a'` cut into `a` runs of `a'`. -/
def pos {a a' : ℕ} (q : Fin a) (r : Fin a') : Fin (a * a') :=
  ⟨q.val * a' + r.val, by
    have h1 := q.isLt; have h2 := r.isLt
    calc q.val * a' + r.val < q.val * a' + a' := by omega
      _ = (q.val + 1) * a' := by ring
      _ ≤ a * a' := Nat.mul_le_mul_right _ h1⟩

/-- A sum over an axis cut into runs is the sum over the runs of the sums inside each. -/
theorem sum_runs {M : Type*} [AddCommMonoid M] (a a' : ℕ) (f : Fin (a * a') → M) :
    ∑ k : Fin (a * a'), f k = ∑ q : Fin a, ∑ r : Fin a', f (pos q r) := by
  rw [← Fintype.sum_prod_type']
  exact (Fintype.sum_equiv finProdFinEquiv (fun p : Fin a × Fin a' => f (pos p.1 p.2)) f fun p =>
    congrArg f (Fin.ext (by
      rw [finProdFinEquiv_apply_val]
      show p.1.val * a' + p.2.val = p.2.val + a' * p.1.val
      ring))).symm

end Cert.Spec

end
-- ==== Proof.LibTile.lean ====
/-
  Layout steps of a kernel that works on a tile of rows, read at an index written by coordinates.

  A tile [a, b, c] (a batch rows, b time steps, c lanes) is flattened to [a*b, c] for a matrix product and
  the product is unflattened again; one time step is cut out of the tile and its unit axis dropped; a run of
  lanes is cut out; a lane vector [c] is laid out as [1, 1, c] and repeated over every row and time step.
  Each lemma says which single entry of the operand the result holds at (r, s, k).
-/
import Idealize.ShloMosaic.Lib.Pipeline.Value
import Idealize.ShloMosaic.Lib.ValueIdx
import Idealize.ShloMosaic.Lib.ValueLayout

noncomputable section

namespace Cert.LibTile

open Idealize.ShloMosaic Idealize.ShloMosaic.ValueIdx

variable {α : Type}

/-- A tile [a, b, c] flattened to [n, c] holds, in row `r * b + s`, the tile's row (r, s). -/
theorem flatten_apply {a b c n : ℕ} (x : (⟨3, ![a, b, c]⟩ : Shape).Idx → α)
    (h : (⟨3, ![a, b, c]⟩ : Shape).ShapeCasts ⟨2, ![n, c]⟩) (r : Fin a) (s : Fin b) (k : Fin c) (p : Fin n)
    (hp : p.val = r.val * b + s.val) :
    shapeCast ⟨2, ![n, c]⟩ x h (ix2 p k) = x (ix3 r s k) :=
  shapeCast_apply x h _ _ (by
    rw [Shape.rowMajor_val_three, Shape.rowMajor_val_two]
    show (r.val * b + s.val) * c + k.val = p.val * c + k.val
    rw [hp])

/-- An [n, c] array unflattened to a tile [a, b, c] holds, at (r, s), the array's row `r * b + s`. -/
theorem unflatten_apply {a b c n : ℕ} (y : (⟨2, ![n, c]⟩ : Shape).Idx → α)
    (h : (⟨2, ![n, c]⟩ : Shape).ShapeCasts ⟨3, ![a, b, c]⟩) (r : Fin a) (s : Fin b) (k : Fin c) (p : Fin n)
    (hp : p.val = r.val * b + s.val) :
    shapeCast ⟨3, ![a, b, c]⟩ y h (ix3 r s k) = y (ix2 p k) :=
  shapeCast_apply y h _ _ (by
    rw [Shape.rowMajor_val_three, Shape.rowMajor_val_two]
    show p.val * c + k.val = (r.val * b + s.val) * c + k.val
    rw [hp])

/-- Time step `s` cut out of a tile ([a, 1, c] at offset (0, s, 0)) with its unit axis dropped holds, at
    (r, k), the tile's entry (r, s, k). -/
theorem step_apply {a b c : ℕ} (x : (⟨3, ![a, b, c]⟩ : Shape).Idx → α) (s : ℕ)
    (hs : (⟨3, ![a, b, c]⟩ : Shape).Slices ![0, s, 0] ⟨3, ![a, 1, c]⟩)
    (hc : (⟨3, ![a, 1, c]⟩ : Shape).ShapeCasts ⟨2, ![a, c]⟩) (r : Fin a) (k : Fin c) (s' : Fin b) (hs' : s'.val = s) :
    shapeCast ⟨2, ![a, c]⟩ (extractStridedSlice ⟨3, ![a, 1, c]⟩ ![0, s, 0] x hs) hc (ix2 r k) = x (ix3 r s' k) := by
  refine (shapeCast_apply _ hc (ix2 r k) (ix3 r (⟨0, Nat.one_pos⟩ : Fin 1) k) ?_).trans ?_
  · rw [Shape.rowMajor_val_three, Shape.rowMajor_val_two]
    show (r.val * 1 + 0) * c + k.val = r.val * c + k.val
    rw [Nat.mul_one, Nat.add_zero]
  · exact extractStridedSlice_apply _ x hs _ _ (fun ax => match ax with
      | ⟨0, _⟩ => by show r.val = 0 + r.val; omega
      | ⟨1, _⟩ => by show s'.val = s + 0; omega
      | ⟨2, _⟩ => by show k.val = 0 + k.val; omega)

/-- A run of lanes starting at `off` cut out of a tile holds, at (r, s, k), the tile's entry (r, s, off + k). -/
theorem lanes_apply {a b c c' : ℕ} (x : (⟨3, ![a, b, c]⟩ : Shape).Idx → α) (off : ℕ)
    (h : (⟨3, ![a, b, c]⟩ : Shape).Slices ![0, 0, off] ⟨3, ![a, b, c']⟩) (r : Fin a) (s : Fin b) (k : Fin c')
    (k' : Fin c) (hk : k'.val = off + k.val) :
    extractStridedSlice ⟨3, ![a, b, c']⟩ ![0, 0, off] x h (ix3 r s k) = x (ix3 r s k') :=
  extractStridedSlice_apply _ x h _ _ (fun ax => match ax with
    | ⟨0, _⟩ => by show r.val = 0 + r.val; omega
    | ⟨1, _⟩ => by show s.val = 0 + s.val; omega
    | ⟨2, _⟩ => by show k'.val = off + k.val; exact hk)

/-- A lane vector [c] laid out as [1, 1, c] and repeated over a tile [a, b, c] holds, at (r, s, k), the
    vector's entry k. -/
theorem lanevec_apply {a b c : ℕ} (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (r : Fin a) (s : Fin b) (k : Fin c) :
    broadcastTo ⟨3, ![a, b, c]⟩ (shapeCast ⟨3, ![1, 1, c]⟩ v h1) h2 (ix3 r s k) = v (ix1 k) := by
  refine (broadcastTo_apply _ h2 (ix3 r s k) (ix3 (⟨0, Nat.one_pos⟩ : Fin 1) (⟨0, Nat.one_pos⟩ : Fin 1) k) fun ax => ?_).trans ?_
  · match ax with
    | ⟨0, _⟩ => rfl
    | ⟨1, _⟩ => rfl
    | ⟨2, _⟩ =>
      show k.val = if c = 1 then 0 else k.val
      split
      · have := k.isLt; omega
      · rfl
  · exact shapeCast_apply v h1 _ _ (by
      rw [Shape.rowMajor_val_three, Shape.rowMajor_val_one]
      show k.val = (0 * 1 + 0) * c + k.val
      rw [Nat.zero_mul, Nat.zero_add])

/-- A vector [c] laid out as one row [1, c] and repeated over [a, c] holds, at (r, k), the vector's entry k. -/
theorem rowvec_apply {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (r : Fin a) (k : Fin c) :
    broadcastTo ⟨2, ![a, c]⟩ (shapeCast ⟨2, ![1, c]⟩ v h1) h2 (ix2 r k) = v (ix1 k) :=
  (broadcastTo_1b_ab_apply _ h2 r k).trans (shapeCast_a_1a_apply v h1 _ k)

end Cert.LibTile

end
-- ==== Proof.Step.lean ====
/-
  One grid point's contribution, read at an index over the extended reals.

  A tile of 64 batch rows by 24 time steps goes through the two cells row by row (every (row, time step) is
  independent), and the projection adds, for each of the 24 time steps in turn, the product of that step's
  hidden row with the matching slice of the table. Entry (r, o) of the accumulator therefore grows by the sum
  over the tile's time steps s and the 90 hidden units h of hidden(r, s)(h) * table(o, s, h).
-/
import proofs.«167840_j8718783611481_2_alg».proof.Proof.Body
import proofs.«167840_j8718783611481_2_alg».proof.Proof.Spec
import proofs.«167840_j8718783611481_2_alg».proof.Proof.LibTile
import Idealize.ShloMosaic.PureOps.Ideal.Laws

noncomputable section

namespace Cert.KernelIdeal.Step

open Cert.KernelIdeal Cert.KernelIdeal.Gen Cert.KernelIdeal.Body Cert.Spec Cert.LibTile
open Idealize.ShloMosaic Idealize.ShloMosaic.ValueIdx

/-- A product into the zero accumulator, entry (p, j): the sum over the contracted axis of lhs(p, k) * rhs(j, k)
    (both operands are contracted along their second axis). -/
theorem dot1_apply (lhs : FVec Ideal S1536x180 .bf16) (rhs : FVec Ideal S360x180 .bf16) (p : Fin 1536) (j : Fin 360) :
    matmul dot_S1536x180_S360x180_S1536x360_1_1_0_0_n_n none lhs rhs (constant S1536x360 .f32 0x00000000#32) (ix2 p j)
      = ∑ k : Fin 180, lhs (ix2 p k) * rhs (ix2 j k) := by
  simp only [matmul]
  rw [Ideal.matmul_constant_zero_apply, ← Equiv.sum_comp (contrEquiv1 dot_S1536x180_S360x180_S1536x360_1_1_0_0_n_n 180 rfl rfl).symm]
  refine Finset.sum_congr rfl fun k _ => ?_
  have hk := contrEquiv1_symm_val dot_S1536x180_S360x180_S1536x360_1_1_0_0_n_n 180 rfl rfl k
  have l0 : ∀ q, (dot_S1536x180_S360x180_S1536x360_1_1_0_0_n_n.lhsIdx (ix2 p j) q 0).val = p.val := fun q => by
    unfold DotDims.lhsIdx
    rw [dif_neg (show ¬(0 : Fin S1536x180.rank) ∈ dot_S1536x180_S360x180_S1536x360_1_1_0_0_n_n.lhsBatch by decide), dif_pos (show (0 : Fin S1536x180.rank) ∈ dot_S1536x180_S360x180_S1536x360_1_1_0_0_n_n.lhsNonContracting by decide)]
    rfl
  have el : dot_S1536x180_S360x180_S1536x360_1_1_0_0_n_n.lhsIdx (ix2 p j) ((contrEquiv1 dot_S1536x180_S360x180_S1536x360_1_1_0_0_n_n 180 rfl rfl).symm k) = ix2 p k := funext fun a => Fin.ext (by
    match a with
    | ⟨0, _⟩ => exact l0 _
    | ⟨1, _⟩ => exact (dot_S1536x180_S360x180_S1536x360_1_1_0_0_n_n.lhsIdx_val_of_single rfl _ _).trans hk)
  have r0 : ∀ q, (dot_S1536x180_S360x180_S1536x360_1_1_0_0_n_n.rhsIdx (ix2 p j) q 0).val = j.val := fun q => by
    unfold DotDims.rhsIdx
    rw [dif_neg (show ¬(0 : Fin S360x180.rank) ∈ dot_S1536x180_S360x180_S1536x360_1_1_0_0_n_n.rhsBatch by decide), dif_pos (show (0 : Fin S360x180.rank) ∈ dot_S1536x180_S360x180_S1536x360_1_1_0_0_n_n.rhsNonContracting by decide)]
    rfl
  have er : dot_S1536x180_S360x180_S1536x360_1_1_0_0_n_n.rhsIdx (ix2 p j) ((contrEquiv1 dot_S1536x180_S360x180_S1536x360_1_1_0_0_n_n 180 rfl rfl).symm k) = ix2 j k := funext fun a => Fin.ext (by
    match a with
    | ⟨0, _⟩ => exact r0 _
    | ⟨1, _⟩ => exact (dot_S1536x180_S360x180_S1536x360_1_1_0_0_n_n.rhsIdx_val_of_single rfl _ _).trans hk)
  rw [el, er]

/-- A product into the zero accumulator, entry (p, j): the sum over the contracted axis of lhs(p, k) * rhs(j, k)
    (both operands are contracted along their second axis). -/
theorem dot2_apply (lhs : FVec Ideal S1536x90 .bf16) (rhs : FVec Ideal S360x90 .bf16) (p : Fin 1536) (j : Fin 360) :
    matmul dot_S1536x90_S360x90_S1536x360_1_1_0_0_n_n none lhs rhs (constant S1536x360 .f32 0x00000000#32) (ix2 p j)
      = ∑ k : Fin 90, lhs (ix2 p k) * rhs (ix2 j k) := by
  simp only [matmul]
  rw [Ideal.matmul_constant_zero_apply, ← Equiv.sum_comp (contrEquiv1 dot_S1536x90_S360x90_S1536x360_1_1_0_0_n_n 90 rfl rfl).symm]
  refine Finset.sum_congr rfl fun k _ => ?_
  have hk := contrEquiv1_symm_val dot_S1536x90_S360x90_S1536x360_1_1_0_0_n_n 90 rfl rfl k
  have l0 : ∀ q, (dot_S1536x90_S360x90_S1536x360_1_1_0_0_n_n.lhsIdx (ix2 p j) q 0).val = p.val := fun q => by
    unfold DotDims.lhsIdx
    rw [dif_neg (show ¬(0 : Fin S1536x90.rank) ∈ dot_S1536x90_S360x90_S1536x360_1_1_0_0_n_n.lhsBatch by decide), dif_pos (show (0 : Fin S1536x90.rank) ∈ dot_S1536x90_S360x90_S1536x360_1_1_0_0_n_n.lhsNonContracting by decide)]
    rfl
  have el : dot_S1536x90_S360x90_S1536x360_1_1_0_0_n_n.lhsIdx (ix2 p j) ((contrEquiv1 dot_S1536x90_S360x90_S1536x360_1_1_0_0_n_n 90 rfl rfl).symm k) = ix2 p k := funext fun a => Fin.ext (by
    match a with
    | ⟨0, _⟩ => exact l0 _
    | ⟨1, _⟩ => exact (dot_S1536x90_S360x90_S1536x360_1_1_0_0_n_n.lhsIdx_val_of_single rfl _ _).trans hk)
  have r0 : ∀ q, (dot_S1536x90_S360x90_S1536x360_1_1_0_0_n_n.rhsIdx (ix2 p j) q 0).val = j.val := fun q => by
    unfold DotDims.rhsIdx
    rw [dif_neg (show ¬(0 : Fin S360x90.rank) ∈ dot_S1536x90_S360x90_S1536x360_1_1_0_0_n_n.rhsBatch by decide), dif_pos (show (0 : Fin S360x90.rank) ∈ dot_S1536x90_S360x90_S1536x360_1_1_0_0_n_n.rhsNonContracting by decide)]
    rfl
  have er : dot_S1536x90_S360x90_S1536x360_1_1_0_0_n_n.rhsIdx (ix2 p j) ((contrEquiv1 dot_S1536x90_S360x90_S1536x360_1_1_0_0_n_n 90 rfl rfl).symm k) = ix2 j k := funext fun a => Fin.ext (by
    match a with
    | ⟨0, _⟩ => exact r0 _
    | ⟨1, _⟩ => exact (dot_S1536x90_S360x90_S1536x360_1_1_0_0_n_n.rhsIdx_val_of_single rfl _ _).trans hk)
  rw [el, er]

/-- A product into the zero accumulator, entry (p, j): the sum over the contracted axis of lhs(p, k) * rhs(j, k)
    (both operands are contracted along their second axis). -/
theorem dot3_apply (lhs : FVec Ideal S64x90 .bf16) (rhs : FVec Ideal S40x90 .bf16) (p : Fin 64) (j : Fin 40) :
    matmul dot_S64x90_S40x90_S64x40_1_1_0_0_n_n none lhs rhs (constant S64x40 .f32 0x00000000#32) (ix2 p j)
      = ∑ k : Fin 90, lhs (ix2 p k) * rhs (ix2 j k) := by
  simp only [matmul]
  rw [Ideal.matmul_constant_zero_apply, ← Equiv.sum_comp (contrEquiv1 dot_S64x90_S40x90_S64x40_1_1_0_0_n_n 90 rfl rfl).symm]
  refine Finset.sum_congr rfl fun k _ => ?_
  have hk := contrEquiv1_symm_val dot_S64x90_S40x90_S64x40_1_1_0_0_n_n 90 rfl rfl k
  have l0 : ∀ q, (dot_S64x90_S40x90_S64x40_1_1_0_0_n_n.lhsIdx (ix2 p j) q 0).val = p.val := fun q => by
    unfold DotDims.lhsIdx
    rw [dif_neg (show ¬(0 : Fin S64x90.rank) ∈ dot_S64x90_S40x90_S64x40_1_1_0_0_n_n.lhsBatch by decide), dif_pos (show (0 : Fin S64x90.rank) ∈ dot_S64x90_S40x90_S64x40_1_1_0_0_n_n.lhsNonContracting by decide)]
    rfl
  have el : dot_S64x90_S40x90_S64x40_1_1_0_0_n_n.lhsIdx (ix2 p j) ((contrEquiv1 dot_S64x90_S40x90_S64x40_1_1_0_0_n_n 90 rfl rfl).symm k) = ix2 p k := funext fun a => Fin.ext (by
    match a with
    | ⟨0, _⟩ => exact l0 _
    | ⟨1, _⟩ => exact (dot_S64x90_S40x90_S64x40_1_1_0_0_n_n.lhsIdx_val_of_single rfl _ _).trans hk)
  have r0 : ∀ q, (dot_S64x90_S40x90_S64x40_1_1_0_0_n_n.rhsIdx (ix2 p j) q 0).val = j.val := fun q => by
    unfold DotDims.rhsIdx
    rw [dif_neg (show ¬(0 : Fin S40x90.rank) ∈ dot_S64x90_S40x90_S64x40_1_1_0_0_n_n.rhsBatch by decide), dif_pos (show (0 : Fin S40x90.rank) ∈ dot_S64x90_S40x90_S64x40_1_1_0_0_n_n.rhsNonContracting by decide)]
    rfl
  have er : dot_S64x90_S40x90_S64x40_1_1_0_0_n_n.rhsIdx (ix2 p j) ((contrEquiv1 dot_S64x90_S40x90_S64x40_1_1_0_0_n_n 90 rfl rfl).symm k) = ix2 j k := funext fun a => Fin.ext (by
    match a with
    | ⟨0, _⟩ => exact r0 _
    | ⟨1, _⟩ => exact (dot_S64x90_S40x90_S64x40_1_1_0_0_n_n.rhsIdx_val_of_single rfl _ _).trans hk)
  rw [el, er]

/-- The gate pre-activations of a tile: rows flattened, multiplied by the weights, unflattened, bias added on
    every row. Entry (r, s, j) is `Spec.gates` of the tile's row (r, s). -/
theorem gateblk1 (lhs : FVec Ideal S64x24x180 .bf16) (W : FVec Ideal S360x180 .bf16) (b : FVec Ideal S360 .f32)
    (r : Fin 64) (s : Fin 24) (j : Fin 360) :
    addf (shapeCast S64x24x360 (matmul dot_S1536x180_S360x180_S1536x360_1_1_0_0_n_n none (shapeCast S1536x180 lhs shapeCasts_S64x24x180_S1536x180) W
            (constant S1536x360 .f32 0x00000000#32)) shapeCasts_S1536x360_S64x24x360)
        (broadcastTo S64x24x360 (shapeCast S1x1x360 b shapeCasts_S360_S1x1x360) broadcasts_S1x1x360_S64x24x360) (ix3 r s j)
      = gates (fun k => lhs (ix3 r s k)) (fun j k => W (ix2 j k)) (fun j => b (ix1 j)) j := by
  have hp : r.val * 24 + s.val < 1536 := by have := r.isLt; have := s.isLt; omega
  rw [addf_apply, unflatten_apply _ _ r s j ⟨r.val * 24 + s.val, hp⟩ rfl, dot1_apply, lanevec_apply]
  unfold gates
  refine congrArg (· + b (ix1 j)) (Finset.sum_congr rfl fun k _ => ?_)
  rw [flatten_apply lhs _ r s k ⟨r.val * 24 + s.val, hp⟩ rfl]

/-- The gate pre-activations of a tile: rows flattened, multiplied by the weights, unflattened, bias added on
    every row. Entry (r, s, j) is `Spec.gates` of the tile's row (r, s). -/
theorem gateblk2 (lhs : FVec Ideal S64x24x90 .bf16) (W : FVec Ideal S360x90 .bf16) (b : FVec Ideal S360 .f32)
    (r : Fin 64) (s : Fin 24) (j : Fin 360) :
    addf (shapeCast S64x24x360 (matmul dot_S1536x90_S360x90_S1536x360_1_1_0_0_n_n none (shapeCast S1536x90 lhs shapeCasts_S64x24x90_S1536x90) W
            (constant S1536x360 .f32 0x00000000#32)) shapeCasts_S1536x360_S64x24x360)
        (broadcastTo S64x24x360 (shapeCast S1x1x360 b shapeCasts_S360_S1x1x360) broadcasts_S1x1x360_S64x24x360) (ix3 r s j)
      = gates (fun k => lhs (ix3 r s k)) (fun j k => W (ix2 j k)) (fun j => b (ix1 j)) j := by
  have hp : r.val * 24 + s.val < 1536 := by have := r.isLt; have := s.isLt; omega
  rw [addf_apply, unflatten_apply _ _ r s j ⟨r.val * 24 + s.val, hp⟩ rfl, dot2_apply, lanevec_apply]
  unfold gates
  refine congrArg (· + b (ix1 j)) (Finset.sum_congr rfl fun k _ => ?_)
  rw [flatten_apply lhs _ r s k ⟨r.val * 24 + s.val, hp⟩ rfl]

/-- The cell on a tile of gate pre-activations, entry (r, s, h): `Spec.cell` of the row's 360 pre-activations. -/
theorem cellblk (g : FVec Ideal S64x24x360 .f32) (r : Fin 64) (s : Fin 24) (h : Fin 90) :
    mulf (logistic (extractStridedSlice S64x24x90 ![0, 0, 270] g slices_S64x24x360_o0_0_270_S64x24x90))
        (tanh (mulf (logistic (extractStridedSlice S64x24x90 ![0, 0, 0] g slices_S64x24x360_o0_0_0_S64x24x90))
          (tanh (extractStridedSlice S64x24x90 ![0, 0, 180] g slices_S64x24x360_o0_0_180_S64x24x90)))) (ix3 r s h)
      = cell (fun j => g (ix3 r s j)) h := by
  show Ideal.logistic (extractStridedSlice S64x24x90 ![0, 0, 270] g _ (ix3 r s h))
      * Ideal.tanh (Ideal.logistic (extractStridedSlice S64x24x90 ![0, 0, 0] g _ (ix3 r s h))
        * Ideal.tanh (extractStridedSlice S64x24x90 ![0, 0, 180] g _ (ix3 r s h))) = _
  rw [lanes_apply g 270 _ r s h (laneO h) rfl, lanes_apply g 0 _ r s h (laneI h) (Nat.zero_add _).symm,
    lanes_apply g 180 _ r s h (laneG h) rfl]
  rfl

variable (x0 : Vec Ideal S64x24x180 .bf16) (x1 : Vec Ideal S360x180 .bf16) (x2 : Vec Ideal S360 .f32)
  (x3 : Vec Ideal S360x90 .bf16) (x4 : Vec Ideal S360 .f32)

/-- The second cell's gate pre-activations on the tile, entry (r, s, j). -/
theorem pay4_apply (r : Fin 64) (s : Fin 24) (j : Fin 360) :
    k0_pay4 (F := Ideal) x0 x1 x2 x3 x4 (ix3 r s j)
      = gates (fun k => Ideal.logistic (cell (gates (fun f => x0 (ix3 r s f)) (fun j f => x1 (ix2 j f)) (fun j => x2 (ix1 j))) k))
          (fun j k => x3 (ix2 j k)) (fun j => x4 (ix1 j)) j := by
  unfold k0_pay4
  simp only [shapeCast_self]
  rw [gateblk2]
  refine congrArg (fun v => gates v (fun j k => x3 (ix2 j k)) (fun j => x4 (ix1 j)) j) (funext fun k => ?_)
  refine (congrArg Ideal.logistic (cellblk _ r s k)).trans ?_
  refine congrArg (fun g => Ideal.logistic (cell g k)) (funext fun j' => ?_)
  exact gateblk1 x0 x1 x2 r s j'

/-- The second cell's output on the tile, entry (r, s, h): `Spec.hidden` of the tile's input row (r, s). -/
theorem hid_apply (r : Fin 64) (s : Fin 24) (h : Fin 90) :
    k0_pay7 (F := Ideal) (k0_pay5 x0 x1 x2 x3 x4) (k0_pay6 x0 x1 x2 x3 x4) (ix3 r s h)
      = Spec.hidden (fun f => x0 (ix3 r s f)) (fun j f => x1 (ix2 j f)) (fun j => x2 (ix1 j))
          (fun j k => x3 (ix2 j k)) (fun j => x4 (ix1 j)) h := by
  unfold k0_pay7 k0_pay5 k0_pay6
  refine (cellblk _ r s h).trans ?_
  unfold Spec.hidden
  exact congrArg (fun g => cell g h) (funext fun j => pay4_apply x0 x1 x2 x3 x4 r s j)

/-- A time step cut out of a 24-step tile is one of the 24. -/
theorem step_lt {s : ℕ} (hs : S64x24x90.Slices ![0, s, 0] S64x1x90) : s < 24 := by
  have h := hs.2 (1 : Fin 3)
  have e : s + 1 ≤ 24 := h
  omega

/-- Time step `s`'s term of the projection at (r, o): hidden row times table slice, summed over the 90 units
    (zero for `s` outside the tile, which never happens). -/
def term (H : FVec Ideal S64x24x90 .bf16) (Wt : FVec Ideal S40x24x90 .bf16) (r : Fin 64) (o : Fin 40) (s : ℕ) : EReal :=
  if hs : s < 24 then ∑ h : Fin 90, H (ix3 r ⟨s, hs⟩ h) * Wt (ix3 o ⟨s, hs⟩ h) else 0

/-- One unrolled step of the projection: the product of step `s`'s hidden rows with step `s`'s table slice. -/
theorem dotstep (H : FVec Ideal S64x24x90 .bf16) (Wt : FVec Ideal S40x24x90 .bf16) (s : ℕ)
    (hs : S64x24x90.Slices ![0, s, 0] S64x1x90) (hs' : S40x24x90.Slices ![0, s, 0] S40x1x90) (r : Fin 64) (o : Fin 40) :
    matmul dot_S64x90_S40x90_S64x40_1_1_0_0_n_n none
        (shapeCast S64x90 (extractStridedSlice S64x1x90 ![0, s, 0] H hs) shapeCasts_S64x1x90_S64x90)
        (shapeCast S40x90 (extractStridedSlice S40x1x90 ![0, s, 0] Wt hs') shapeCasts_S40x1x90_S40x90)
        (constant S64x40 .f32 0x00000000#32) (ix2 r o) = term H Wt r o s := by
  have h24 := step_lt hs
  rw [dot3_apply]
  unfold term
  rw [dif_pos h24]
  refine Finset.sum_congr rfl fun h _ => ?_
  rw [step_apply H s hs _ r h ⟨s, h24⟩ rfl, step_apply Wt s hs' _ o h ⟨s, h24⟩ rfl]

theorem zero_scalar : (Scalar.ofBits (F := Ideal) .f32 0x00000000#32 : EReal) = 0 := Ideal.ofBits_zero_f32

/-- The accumulator after a point, entry (r, o): what it held plus the tile's 24 steps of 90 products. -/
theorem stepOf_apply (acc : Vec Ideal S64x40 .f32) (w : Vec Ideal S40x24x90 .f32) (r : Fin 64) (o : Fin 40) :
    stepOf (F := Ideal) acc x0 x1 x2 x3 x4 w (ix2 r o)
      = acc (ix2 r o) + ∑ s : Fin 24, ∑ h : Fin 90,
          Spec.hidden (fun f => x0 (ix3 r s f)) (fun j f => x1 (ix2 j f)) (fun j => x2 (ix1 j))
            (fun j k => x3 (ix2 j k)) (fun j => x4 (ix1 j)) h * w (ix3 o s h) := by
  have hsum : ∀ g : ℕ → EReal, ∑ s ∈ Finset.range 24, g s
      = 0 + g 0 + g 1 + g 2 + g 3 + g 4 + g 5 + g 6 + g 7 + g 8 + g 9 + g 10 + g 11 + g 12 + g 13 + g 14 + g 15
        + g 16 + g 17 + g 18 + g 19 + g 20 + g 21 + g 22 + g 23 := fun g => by
    simp only [Finset.sum_range_succ, Finset.sum_range_zero]
  unfold stepOf k0_pay1 k0_pay14 k0_pay12 k0_pay9 k0_pay15 k0_pay10 k0_pay11 k0_pay13
  simp only [shapeCast_self, addf_apply, dotstep, broadcast_apply, zero_scalar]
  refine congrArg (acc (ix2 r o) + ·) ?_
  rw [← hsum (term (k0_pay7 (k0_pay5 x0 x1 x2 x3 x4) (k0_pay6 x0 x1 x2 x3 x4)) (k0_pay8 w) r o), Finset.sum_range]
  refine Finset.sum_congr rfl fun s _ => ?_
  unfold term
  rw [dif_pos s.isLt]
  refine Finset.sum_congr rfl fun h _ => ?_
  rw [hid_apply]
  unfold k0_pay8
  simp only [shapeCast_self]
  rfl

end Cert.KernelIdeal.Step

end
-- ==== Proof.Blocks.lean ====
/-
  What each window's block at a grid point reads of the array the region finds.

  The grid is 16 batch tiles by 10 time tiles, point t = 10 * (batch tile) + (time tile). The input tile of
  point t is rows 64 * (t / 10) .. and time steps 24 * (t % 10) .. of the flattened input; the weights, biases and
  the projection table are staged whole at every point; the slice of the table a point loads starts at time
  step 24 * (t % 10).
-/
import proofs.«167840_j8718783611481_2_alg».proof.Proof.Body
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Body Idealize.ShloMosaic.ValueIdx

variable {F : FTy → Type} [FloatOps F]
variable (m : (ℓ : Loc nD τ sig) → Buf (Elt F) ℓ)

/-- The printed index maps and the table offset, decided once over the 160 grid points. -/
theorem idx_facts : ∀ t : Fin cfg0.N,
    win0_0.index t (0 : Fin 3) = t.val / 10 ∧ win0_0.index t (1 : Fin 3) = t.val % 10 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0
    ∧ win0_6.index t (0 : Fin 1) = 0
    ∧ win0_7.index t (0 : Fin 2) = t.val / 10 ∧ win0_7.index t (1 : Fin 2) = 0
    ∧ k0_off1 (grid0.coords t) (0 : Fin 3) = 0 ∧ k0_off1 (grid0.coords t) (1 : Fin 3) = t.val % 10 * 24
    ∧ k0_off1 (grid0.coords t) (2 : Fin 3) = 0 :=
  (by decide +kernel : ∀ t : Fin grid0.N, _)

/-- The input tile at point t, entry (r, s, f): the flattened input at row 64 (t/10) + r, step 24 (t%10) + s. -/
theorem blk0 (c : Dev nD) (t : Fin cfg0.N) (r : Fin 64) (s : Fin 24) (f : Fin 180) (B : Fin 1024) (T : Fin 240)
    (hB : B.val = t.val / 10 * 64 + r.val) (hT : T.val = t.val % 10 * 24 + s.val) :
    (iblk m c 0 t : Vec F S64x24x180 _) (ix3 r s f) = V m c main_v2 (ix3 B T f) := by
  have ef := idx_facts t
  unfold iblk
  rw [View.read_apply]
  show V m c main_v2 _ = V m c main_v2 _
  congr 1
  funext a; apply Fin.ext
  match a with
  | ⟨0, _⟩ => show win0_0.index t (0 : Fin 3) * 64 + 1 * r.val = B.val; rw [ef.1, hB]; omega
  | ⟨1, _⟩ => show win0_0.index t (1 : Fin 3) * 24 + 1 * s.val = T.val; rw [ef.2.1, hT]; omega
  | ⟨2, _⟩ => show win0_0.index t (2 : Fin 3) * 180 + 1 * f.val = f.val; rw [ef.2.2.1]; omega

theorem blk1 (c : Dev nD) (t : Fin cfg0.N) : (iblk m c 1 t : Vec F S360x180 _) = V m c main_v3 := by
  have ef := idx_facts t
  funext y
  unfold iblk
  rw [View.read_apply]
  show V m c main_v3 _ = V m c main_v3 y
  congr 1
  funext a; apply Fin.ext
  match a with
  | ⟨0, _⟩ => show win0_1.index t (0 : Fin 2) * 360 + 1 * (y 0).val = (y 0).val; rw [ef.2.2.2.1]; omega
  | ⟨1, _⟩ => show win0_1.index t (1 : Fin 2) * 180 + 1 * (y 1).val = (y 1).val; rw [ef.2.2.2.2.1]; omega

theorem blk2 (c : Dev nD) (t : Fin cfg0.N) : (iblk m c 2 t : Vec F S360 _) = V m c main_v4 := by
  have ef := idx_facts t
  funext y
  unfold iblk
  rw [View.read_apply]
  show V m c main_v4 _ = V m c main_v4 y
  congr 1
  funext a; apply Fin.ext
  match a with
  | ⟨0, _⟩ => show win0_2.index t (0 : Fin 1) * 360 + 1 * (y 0).val = (y 0).val; rw [ef.2.2.2.2.2.1]; omega

theorem blk3 (c : Dev nD) (t : Fin cfg0.N) : (iblk m c 3 t : Vec F S360x90 _) = V m c main_v5 := by
  have ef := idx_facts t
  funext y
  unfold iblk
  rw [View.read_apply]
  show V m c main_v5 _ = V m c main_v5 y
  congr 1
  funext a; apply Fin.ext
  match a with
  | ⟨0, _⟩ => show win0_3.index t (0 : Fin 2) * 360 + 1 * (y 0).val = (y 0).val; rw [ef.2.2.2.2.2.2.1]; omega
  | ⟨1, _⟩ => show win0_3.index t (1 : Fin 2) * 90 + 1 * (y 1).val = (y 1).val; rw [ef.2.2.2.2.2.2.2.1]; omega

theorem blk4 (c : Dev nD) (t : Fin cfg0.N) : (iblk m c 4 t : Vec F S360 _) = V m c main_v6 := by
  have ef := idx_facts t
  funext y
  unfold iblk
  rw [View.read_apply]
  show V m c main_v6 _ = V m c main_v6 y
  congr 1
  funext a; apply Fin.ext
  match a with
  | ⟨0, _⟩ => show win0_4.index t (0 : Fin 1) * 360 + 1 * (y 0).val = (y 0).val; rw [ef.2.2.2.2.2.2.2.2.1]; omega

theorem blk5 (c : Dev nD) (t : Fin cfg0.N) : (iblk m c 5 t : Vec F S40x240x90 _) = V m c main_v7 := by
  have ef := idx_facts t
  funext y
  unfold iblk
  rw [View.read_apply]
  show V m c main_v7 _ = V m c main_v7 y
  congr 1
  funext a; apply Fin.ext
  match a with
  | ⟨0, _⟩ => show win0_5.index t (0 : Fin 3) * 40 + 1 * (y 0).val = (y 0).val; rw [ef.2.2.2.2.2.2.2.2.2.1]; omega
  | ⟨1, _⟩ => show win0_5.index t (1 : Fin 3) * 240 + 1 * (y 1).val = (y 1).val; rw [ef.2.2.2.2.2.2.2.2.2.2.1]; omega
  | ⟨2, _⟩ => show win0_5.index t (2 : Fin 3) * 90 + 1 * (y 2).val = (y 2).val; rw [ef.2.2.2.2.2.2.2.2.2.2.2.1]; omega

theorem blk6 (c : Dev nD) (t : Fin cfg0.N) : (iblk m c 6 t : Vec F S40 _) = V m c main_arg8 := by
  have ef := idx_facts t
  funext y
  unfold iblk
  rw [View.read_apply]
  show V m c main_arg8 _ = V m c main_arg8 y
  congr 1
  funext a; apply Fin.ext
  match a with
  | ⟨0, _⟩ => show win0_6.index t (0 : Fin 1) * 40 + 1 * (y 0).val = (y 0).val; rw [ef.2.2.2.2.2.2.2.2.2.2.2.2.1]; omega

/-- The table slice a point loads, entry (o, s, h): the table at time step 24 (t%10) + s. -/
theorem wld_apply (c : Dev nD) (t : Fin cfg0.N) (o : Fin 40) (s : Fin 24) (h : Fin 90) (T : Fin 240)
    (hT : T.val = t.val % 10 * 24 + s.val) :
    wld (grid0.coords t) (iblk m c 5 t : Vec F S40x240x90 _) (ix3 o s h) = V m c main_v7 (ix3 o T h) := by
  have ef := idx_facts t
  rw [blk5]
  unfold wld
  show V m c main_v7 _ = V m c main_v7 _
  congr 1
  funext a; apply Fin.ext
  match a with
  | ⟨0, _⟩ => show k0_off1 (grid0.coords t) (0 : Fin 3) + 1 * o.val = o.val; rw [ef.2.2.2.2.2.2.2.2.2.2.2.2.2.2.2.1]; omega
  | ⟨1, _⟩ => show k0_off1 (grid0.coords t) (1 : Fin 3) + 1 * s.val = T.val; rw [ef.2.2.2.2.2.2.2.2.2.2.2.2.2.2.2.2.1, hT]; omega
  | ⟨2, _⟩ => show k0_off1 (grid0.coords t) (2 : Fin 3) + 1 * h.val = h.val; rw [ef.2.2.2.2.2.2.2.2.2.2.2.2.2.2.2.2.2]; omega

end Cert.KernelIdeal.Blocks

end
-- ==== Proof.Final.lean ====
/-
  From grid points to the whole output array.

  Within a batch tile the scratch accumulator after time tile q holds the contributions of time tiles 0..q
  (zero is stored first at q = 0); at q = 9 the output block is the accumulator plus the projection bias, and that
  block is written back. The sixteen written blocks tile the [1024, 40] array, so the array ends holding
  `Spec.proj` of the arrays the region finds: the sum over ten tiles of 24 steps is the sum over the 240 steps.
-/
import proofs.«167840_j8718783611481_2_alg».proof.Proof.Step
import proofs.«167840_j8718783611481_2_alg».proof.Proof.Blocks
import Idealize.ShloMosaic.Lib.Pipeline.Value

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Body Cert.KernelIdeal.Step Cert.KernelIdeal.Blocks
open Cert.Spec Cert.LibTile Idealize.ShloMosaic.ValueIdx

variable (m : (ℓ : Loc nD τ sig) → Buf (Elt Ideal) ℓ) (ρ : Dev nD → PrngReg)

/-- The output array as one function of the arrays the region finds. -/
def G (c : Dev nD) : S1024x40.Idx → EReal :=
  proj (V m c main_v2) (V m c main_v3) (V m c main_v4) (V m c main_v5) (V m c main_v6) (V m c main_v7) (V m c main_arg8)

/-- Time tile q's contribution to entry (B, o): its 24 steps of 90 products. -/
def contrib (c : Dev nD) (B : Fin 1024) (o : Fin 40) (q : Fin 10) : EReal :=
  ∑ s : Fin 24, ∑ h : Fin 90,
    hid (V m c main_v2) (V m c main_v3) (V m c main_v4) (V m c main_v5) (V m c main_v6) B (pos q s) h
      * (V m c main_v7 : S40x240x90.Idx → EReal) (ix3 o (pos q s) h)

/-- The same with the tile a natural number (zero outside the ten tiles, which never happens). -/
def contribN (c : Dev nD) (B : Fin 1024) (o : Fin 40) (q : ℕ) : EReal :=
  if hq : q < 10 then contrib m c B o ⟨q, hq⟩ else 0

theorem contribN_of_lt (c : Dev nD) (B : Fin 1024) (o : Fin 40) {q : ℕ} (hq : q < 10) :
    contribN m c B o q = contrib m c B o ⟨q, hq⟩ := dif_pos hq

/-- One point adds its time tile's contribution to the accumulator. -/
theorem step_point (c : Dev nD) (t : Fin cfg0.N) (acc : Vec Ideal S64x40 .f32) (r : Fin 64) (o : Fin 40) (B : Fin 1024)
    (hB : B.val = t.val / 10 * 64 + r.val) (q : Fin 10) (hq : q.val = t.val % 10) :
    stepOf (F := Ideal) acc (iblk m c 0 t) (iblk m c 1 t) (iblk m c 2 t) (iblk m c 3 t) (iblk m c 4 t) (wld (grid0.coords t) (iblk m c 5 t)) (ix2 r o) = acc (ix2 r o) + contrib m c B o q := by
  refine (stepOf_apply (iblk m c 0 t) (iblk m c 1 t) (iblk m c 2 t) (iblk m c 3 t) (iblk m c 4 t) acc
    (wld (grid0.coords t) (iblk m c 5 t)) r o).trans ?_
  refine congrArg (acc (ix2 r o) + ·) ?_
  unfold contrib
  refine Finset.sum_congr rfl fun s _ => Finset.sum_congr rfl fun h _ => ?_
  have hT : (pos q s : Fin 240).val = t.val % 10 * 24 + s.val := by
    show q.val * 24 + s.val = _
    rw [hq]
  rw [wld_apply m c t o s h (pos q s) hT]
  unfold hid
  rw [blk1, blk2, blk3, blk4]
  exact congrArg (fun v => Spec.hidden v (fun j f => V m c main_v3 (ix2 j f)) (fun j => V m c main_v4 (ix1 j))
      (fun j k => V m c main_v5 (ix2 j k)) (fun j => V m c main_v6 (ix1 j)) h * V m c main_v7 (ix3 o (pos q s) h))
    (funext fun f => blk0 m c t r s f B (pos q s) hB hT)

/-- The zero block stored at the first time tile. -/
theorem pay3_apply (i : S64x40.Idx) : k0_pay3 (F := Ideal) i = 0 := by
  unfold k0_pay3
  rw [shapeCast_self]
  exact zero_scalar

/-! ## What the scratch and the output block hold after a point, case by case -/

theorem snd_A (c : Dev nD) (t : Fin cfg0.N) (h0 : t.val % 10 = 0) (h1 : ¬t.val % 10 = 9) :
    (outsAt0 m c t.val t.isLt).2 = stepOf (k0_pay3 (F := Ideal)) (iblk m c 0 t) (iblk m c 1 t) (iblk m c 2 t) (iblk m c 3 t) (iblk m c 4 t) (wld (grid0.coords t) (iblk m c 5 t)) :=
  (congrArg Prod.snd (outsAt0_A m c t h0 h1)).trans
    (scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))

theorem snd_B (c : Dev nD) (t : Fin cfg0.N) (h0 : ¬t.val % 10 = 0) (h1 : ¬t.val % 10 = 9) :
    (outsAt0 m c t.val t.isLt).2 = stepOf (outsAt0 m c (t.val - 1) (Nat.lt_of_le_of_lt (Nat.sub_le _ _) t.isLt)).2 (iblk m c 0 t) (iblk m c 1 t) (iblk m c 2 t) (iblk m c 3 t) (iblk m c 4 t) (wld (grid0.coords t) (iblk m c 5 t)) :=
  (congrArg Prod.snd (outsAt0_B m c t h0 h1)).trans
    (scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)

theorem snd_C (c : Dev nD) (t : Fin cfg0.N) (h0 : ¬t.val % 10 = 0) (h1 : t.val % 10 = 9) :
    (outsAt0 m c t.val t.isLt).2 = stepOf (outsAt0 m c (t.val - 1) (Nat.lt_of_le_of_lt (Nat.sub_le _ _) t.isLt)).2 (iblk m c 0 t) (iblk m c 1 t) (iblk m c 2 t) (iblk m c 3 t) (iblk m c 4 t) (wld (grid0.coords t) (iblk m c 5 t)) :=
  (congrArg Prod.snd (outsAt0_C m c t h0 h1)).trans
    (scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)

theorem fst_C (c : Dev nD) (t : Fin cfg0.N) (h0 : ¬t.val % 10 = 0) (h1 : t.val % 10 = 9) :
    (outsAt0 m c t.val t.isLt).1 = k0_pay2 (stepOf (outsAt0 m c (t.val - 1) (Nat.lt_of_le_of_lt (Nat.sub_le _ _) t.isLt)).2 (iblk m c 0 t) (iblk m c 1 t) (iblk m c 2 t) (iblk m c 3 t) (iblk m c 4 t) (wld (grid0.coords t) (iblk m c 5 t))) (iblk m c 6 t) :=
  (congrArg Prod.fst (outsAt0_C m c t h0 h1)).trans
    (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)

/-- The accumulation, by induction on the point: after time tile q of a batch tile the scratch holds the sum of
    the contributions of time tiles 0..q. -/
theorem acc_eq (c : Dev nD) : ∀ (n : ℕ) (hn : n < cfg0.N) (r : Fin 64) (o : Fin 40) (B : Fin 1024),
    B.val = n / 10 * 64 + r.val →
    (outsAt0 m c n hn).2 (ix2 r o) = ∑ q ∈ Finset.range (n % 10 + 1), contribN m c B o q
  | 0, hn => fun r o B hB => by
    rw [snd_A m c ⟨0, hn⟩ rfl (by show ¬(0 : ℕ) % 10 = 9; decide), step_point m c ⟨0, hn⟩ _ r o B hB ⟨0, by decide⟩ rfl, pay3_apply, zero_add]
    show _ = ∑ q ∈ Finset.range 1, contribN m c B o q
    rw [Finset.sum_range_one, contribN_of_lt m c B o (by decide : 0 < 10)]
  | n + 1, hn => fun r o B hB => by
    have hN : n + 1 < 160 := lt_of_lt_of_eq hn (show cfg0.N = 160 from N_0)
    by_cases h0 : (n + 1) % 10 = 0
    · rw [snd_A m c ⟨n + 1, hn⟩ h0 (by show ¬(n + 1) % 10 = 9; omega), step_point m c ⟨n + 1, hn⟩ _ r o B hB ⟨0, by decide⟩ h0.symm, pay3_apply,
        zero_add, h0]
      show _ = ∑ q ∈ Finset.range 1, contribN m c B o q
      rw [Finset.sum_range_one, contribN_of_lt m c B o (by decide : 0 < 10)]
    · have hk : (n + 1) % 10 = n % 10 + 1 := by omega
      have hlt : n % 10 + 1 < 10 := by omega
      have hB' : B.val = n / 10 * 64 + r.val := by rw [hB]; congr 2; omega
      have hstep : (outsAt0 m c (n + 1) hn).2 (ix2 r o)
          = (outsAt0 m c n (Nat.lt_of_succ_lt hn)).2 (ix2 r o) + contrib m c B o ⟨n % 10 + 1, hlt⟩ := by
        by_cases h1 : (n + 1) % 10 = 9
        · rw [snd_C m c ⟨n + 1, hn⟩ h0 h1]
          exact step_point m c ⟨n + 1, hn⟩ _ r o B hB ⟨n % 10 + 1, hlt⟩ hk.symm
        · rw [snd_B m c ⟨n + 1, hn⟩ h0 h1]
          exact step_point m c ⟨n + 1, hn⟩ _ r o B hB ⟨n % 10 + 1, hlt⟩ hk.symm
      rw [hstep, acc_eq c n (Nat.lt_of_succ_lt hn) r o B hB', hk, Finset.sum_range_succ _ (n % 10 + 1),
        contribN_of_lt m c B o hlt]

/-- Ten tiles of 24 steps are the 240 steps: the accumulator after the last time tile is the projection's double sum. -/
theorem sum_contrib (c : Dev nD) (B : Fin 1024) (o : Fin 40) :
    ∑ q ∈ Finset.range 10, contribN m c B o q
      = ∑ T : Fin 240, ∑ h : Fin 90,
          hid (V m c main_v2) (V m c main_v3) (V m c main_v4) (V m c main_v5) (V m c main_v6) B T h
            * (V m c main_v7 : S40x240x90.Idx → EReal) (ix3 o T h) := by
  rw [Finset.sum_range]
  refine Eq.symm ((sum_runs 10 24 fun T : Fin (10 * 24) => ∑ h : Fin 90,
    hid (V m c main_v2) (V m c main_v3) (V m c main_v4) (V m c main_v5) (V m c main_v6) B T h
      * (V m c main_v7 : S40x240x90.Idx → EReal) (ix3 o T h)).trans ?_)
  refine Finset.sum_congr rfl fun q _ => ?_
  rw [contribN_of_lt m c B o q.isLt]
  rfl

/-- What a flushing point writes back is its block of `G`: rows 64 (t/10) .. of the finished accumulator plus bias. -/
theorem flushed_eq (c : Dev nD) (t : Fin cfg0.N) (hf : (cfg0.win 7).flush t = true) :
    (dats m 0 c).flushed 7 t = ((cfg0.win 7).blk t).view.read (Elt Ideal) (G m c) := by
  have h9 : t.val % 10 = 9 := (flush0_7 t).mp hf
  have h0 : ¬t.val % 10 = 0 := by omega
  have ef := idx_facts t
  have hN : cfg0.N = 160 := N_0
  show (cfg0.win 7).cut (grid0.coords t) ((dats m 0 c).after 7 t) = _
  rw [after0_7, fst_C m c t h0 h9, ← snd_C m c t h0 h9]
  funext y
  obtain ⟨r, o, rfl⟩ : ∃ (r : Fin 64) (o : Fin 40), y = ix2 r o := ⟨y 0, y 1, eq_ix2 y⟩
  have hBlt : t.val / 10 * 64 + r.val < 1024 := by have := t.isLt; have := r.isLt; omega
  show k0_pay2 (outsAt0 m c t.val t.isLt).2 (iblk m c 6 t) (ix2 r o) = G m c (((cfg0.win 7).blk t).view.emb (ix2 r o))
  have hemb : ((cfg0.win 7).blk t).view.emb (ix2 r o) = ix2 (⟨t.val / 10 * 64 + r.val, hBlt⟩ : Fin 1024) o := by
    funext a; apply Fin.ext
    match a with
    | ⟨0, _⟩ => show win0_7.index t (0 : Fin 2) * 64 + 1 * r.val = t.val / 10 * 64 + r.val; rw [ef.2.2.2.2.2.2.2.2.2.2.2.2.2.1]; omega
    | ⟨1, _⟩ => show win0_7.index t (1 : Fin 2) * 40 + 1 * o.val = o.val; rw [ef.2.2.2.2.2.2.2.2.2.2.2.2.2.2.1]; omega
  rw [hemb]
  unfold k0_pay2
  rw [addf_apply, rowvec_apply, blk6, acc_eq m c t.val t.isLt r o ⟨_, hBlt⟩ rfl, h9, sum_contrib]
  rfl

/-- The output array after the run: the sixteen written blocks tile it, so it is `G`. -/
theorem final (c : Dev nD) : (dats m 0 c).arrAt 7 cfg0.N = G m c :=
  (dats m 0 c).arrAt_eq_of_cover 7 (G m c) (flushed_eq m c) fun i => by
    have hN : cfg0.N = 160 := N_0
    have hi0 : (i 0).val < 1024 := (i 0).isLt
    have hi1 : (i 1).val < 40 := (i 1).isLt
    have htlt : (i 0).val / 64 * 10 + 9 < cfg0.N := by omega
    have ht9 : ((i 0).val / 64 * 10 + 9) % 10 = 9 := by omega
    have ef := idx_facts ⟨(i 0).val / 64 * 10 + 9, htlt⟩
    refine ⟨⟨(i 0).val / 64 * 10 + 9, htlt⟩, (flush0_7 _).mpr ht9, ?_⟩
    show i ∈ ((View.whole main_v8).slice (win0_7.rect ⟨(i 0).val / 64 * 10 + 9, htlt⟩)).set
    rw [View.set_slice_whole, Rect.mem_set_unit]
    intro a
    match a with
    | ⟨0, _⟩ =>
      show win0_7.index ⟨(i 0).val / 64 * 10 + 9, htlt⟩ (0 : Fin 2) * 64 ≤ (i 0).val
        ∧ (i 0).val < win0_7.index ⟨(i 0).val / 64 * 10 + 9, htlt⟩ (0 : Fin 2) * 64 + 64
      rw [ef.2.2.2.2.2.2.2.2.2.2.2.2.2.1]
      show ((i 0).val / 64 * 10 + 9) / 10 * 64 ≤ (i 0).val ∧ (i 0).val < ((i 0).val / 64 * 10 + 9) / 10 * 64 + 64
      omega
    | ⟨1, _⟩ =>
      show win0_7.index ⟨(i 0).val / 64 * 10 + 9, htlt⟩ (1 : Fin 2) * 40 ≤ (i 1).val
        ∧ (i 1).val < win0_7.index ⟨(i 0).val / 64 * 10 + 9, htlt⟩ (1 : Fin 2) * 40 + 40
      rw [ef.2.2.2.2.2.2.2.2.2.2.2.2.2.2.1]
      omega

end Cert.KernelIdeal.Final

end
-- ==== Proof.Host.lean ====
/-
  The host operations around the kernel call.

  Before the call the host lays the input out as [1024, 240, 180] (a format change, a transpose and a
  flattening), adds each pair of biases, and views the projection table as [40, 240, 90]. After the call it views
  the [1024, 40] result as [1024, 4, 10] and takes a softmax along the last axis. The softmax is written once, as
  `tail`: the other program ends with the same operations, so it is never opened.
-/
import proofs.«167840_j8718783611481_2_alg».proof.Proof.Final
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Host

open Cert.KernelIdeal Cert.KernelIdeal.Gen Cert.KernelIdeal.Final Idealize.ShloMosaic.StableHlo

variable (m : (ℓ : Loc nD τ sig) → Buf (Elt Ideal) ℓ) (ρ : Dev nD → PrngReg)

/-- The softmax over groups of ten of a [1024, 40] array viewed [1024, 4, 10]: subtract the group's maximum,
    exponentiate, divide by the group's sum. -/
def tail (y : S1024x40.Idx → EReal) : S1024x4x10.Idx → EReal :=
  Host.divf
    (Host.exp (F := Ideal) (subf (shapeCast S1024x4x10 y shapeCasts_S1024x40_S1024x4x10)
      (broadcastInDim S1024x4x10 ![0, 1, 2] bcast_S1024x4x1_S1024x4x10_0_1_2
        (broadcastInDim S1024x4x1 ![0, 1] bcast_S1024x4_S1024x4x1_0_1
          (maximumf (broadcastInDim S1024x4 ![] bcast_S_S1024x4 (constant (F := Ideal) S_ .f32 0xFF800000#32))
            (Host.reduce FloatOps.maximumf (shapeCast S1024x4x10 y shapeCasts_S1024x40_S1024x4x10)
              (constant (F := Ideal) S_ .f32 0xFF800000#32) reducesTo_S1024x4x10_S1024x4_d2 h_S_))))))
    (broadcastInDim S1024x4x10 ![0, 1, 2] bcast_S1024x4x1_S1024x4x10_0_1_2
      (broadcastInDim S1024x4x1 ![0, 1] bcast_S1024x4_S1024x4x1_0_1
        (Host.reduceAdd
          (Host.exp (F := Ideal) (subf (shapeCast S1024x4x10 y shapeCasts_S1024x40_S1024x4x10)
            (broadcastInDim S1024x4x10 ![0, 1, 2] bcast_S1024x4x1_S1024x4x10_0_1_2
              (broadcastInDim S1024x4x1 ![0, 1] bcast_S1024x4_S1024x4x1_0_1
                (maximumf (broadcastInDim S1024x4 ![] bcast_S_S1024x4 (constant (F := Ideal) S_ .f32 0xFF800000#32))
                  (Host.reduce FloatOps.maximumf (shapeCast S1024x4x10 y shapeCasts_S1024x40_S1024x4x10)
                    (constant (F := Ideal) S_ .f32 0xFF800000#32) reducesTo_S1024x4x10_S1024x4_d2 h_S_))))))
          (constant (F := Ideal) S_ .f32 0x00000000#32) reducesTo_S1024x4x10_S1024x4_d2 h_S_)))

/-! ## The arrays the region finds -/

theorem V_v2 (c : Dev nD) : @Eq (FVec Ideal S1024x240x180 .bf16) (V m c main_v2)
    (shapeCast S1024x240x180 (transpose S1024x240x3x60 [0, 3, 1, 2]
        (truncf .bf16 (m ((c : Thread nD τ).loc main_arg0) : FVec Ideal S1024x3x60x240 .f32) bitsLt_bf16_f32)
        transposes_S1024x3x60x240_S1024x240x3x60_0_3_1_2) shapeCasts_S1024x240x3x60_S1024x240x180) := by
  show StableHlo.after hostOps0 (fun b => m (c, b)) (Proc.devRef .tc main_v2) = _
  after_results
  rfl

theorem V_v3 (c : Dev nD) : @Eq (FVec Ideal S360x180 .bf16) (V m c main_v3)
    (truncf .bf16 (m ((c : Thread nD τ).loc main_arg1) : FVec Ideal S360x180 .f32) bitsLt_bf16_f32) := by
  show StableHlo.after hostOps0 (fun b => m (c, b)) (Proc.devRef .tc main_v3) = _
  after_results

theorem V_v4 (c : Dev nD) : @Eq (FVec Ideal S360 .f32) (V m c main_v4)
    (addf (m ((c : Thread nD τ).loc main_arg2) : FVec Ideal S360 .f32) (m ((c : Thread nD τ).loc main_arg3))) := by
  show StableHlo.after hostOps0 (fun b => m (c, b)) (Proc.devRef .tc main_v4) = _
  after_results

theorem V_v5 (c : Dev nD) : @Eq (FVec Ideal S360x90 .bf16) (V m c main_v5)
    (truncf .bf16 (m ((c : Thread nD τ).loc main_arg4) : FVec Ideal S360x90 .f32) bitsLt_bf16_f32) := by
  show StableHlo.after hostOps0 (fun b => m (c, b)) (Proc.devRef .tc main_v5) = _
  after_results

theorem V_v6 (c : Dev nD) : @Eq (FVec Ideal S360 .f32) (V m c main_v6)
    (addf (m ((c : Thread nD τ).loc main_arg5) : FVec Ideal S360 .f32) (m ((c : Thread nD τ).loc main_arg6))) := by
  show StableHlo.after hostOps0 (fun b => m (c, b)) (Proc.devRef .tc main_v6) = _
  after_results

theorem V_v7 (c : Dev nD) : @Eq (FVec Ideal S40x240x90 .f32) (V m c main_v7)
    (shapeCast S40x240x90 (m ((c : Thread nD τ).loc main_arg7) : FVec Ideal S40x21600 .f32) shapeCasts_S40x21600_S40x240x90) := by
  show StableHlo.after hostOps0 (fun b => m (c, b)) (Proc.devRef .tc main_v7) = _
  after_results
  rfl

/-- The host tail applied to the region's array. -/
theorem tail_eq (c : Dev nD) : Pipeline.afterTail₀ cfgs (dats m) 0 (V0 m) [hostOps1] c main_v20 = tail (G m c) := by
  unfold Pipeline.afterTail₀
  show StableHlo.after hostOps1 _ (Proc.devRef .tc main_v20) = _
  after_results
  rw [(Pipeline.withArrays_arr spec0 launch0.win.arr_inj c _ _ 7).trans (final m c)]
  rfl

/-- The kernel program's run, read: the result is the softmax of `G`, and the arguments end unchanged. -/
theorem run : θ_run defs (onTc (τ := τ) (main (F := Ideal))) ⟨m, fun _ => 0, ρ⟩ fun r => ∀ c : Dev nD,
      r.2.mem ((c.tc : Thread nD τ).loc main_v20) = tail (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 6).trans ((((dats m) 0 c).arrAt_in 6 rfl _).trans ((A_eq m c 6).trans (V_main_arg8 m c)))⟩)
    (run_main m ρ)

end Cert.KernelIdeal.Host

end
-- ==== Proof.RefValue.lean ====
/-
  The reference, read stage by stage at an index: its array before the softmax is `Spec.proj` of the
  transposed-and-flattened input, the two weight matrices, the summed biases, the projection table viewed as
  [40, 240, 90], and the projection bias.

  Three facts beyond re-indexing are used: `(s + b) + b' = s + (b + b')` for the two biases added one after
  the other; `1 / (1 + exp(-x))` is the logistic function by definition; and the contraction over the 21600
  flattened positions is the double sum over (time step, hidden unit).
-/
import proofs.«167840_j8718783611481_2_alg».proof.Proof.Gen.ReferenceIdeal.Read
import proofs.«167840_j8718783611481_2_alg».proof.Proof.Spec

noncomputable section

namespace Cert.RefValue

open Cert.ReferenceIdeal Cert.ReferenceIdeal.Read Cert.Spec Idealize.ShloMosaic Idealize.ShloMosaic.ValueIdx

/-- The float pattern of 1.0 denotes the real number one. -/
theorem one_f32 : Ideal.ofBits .f32 0x3F800000#32 = 1 := by
  simp [Ideal.ofBits, Ideal.ieee, -EReal.coe_mul]; norm_num

variable (x0 : (⟨S1024x3x60x240, .f32⟩ : BufTy).Contents (Elt Ideal)) (x1 : (⟨S360x180, .f32⟩ : BufTy).Contents (Elt Ideal))
  (x2 x3 : (⟨S360, .f32⟩ : BufTy).Contents (Elt Ideal)) (x4 : (⟨S360x90, .f32⟩ : BufTy).Contents (Elt Ideal))
  (x5 x6 : (⟨S360, .f32⟩ : BufTy).Contents (Elt Ideal)) (x7 : (⟨S40x21600, .f32⟩ : BufTy).Contents (Elt Ideal))
  (x8 : (⟨S40, .f32⟩ : BufTy).Contents (Elt Ideal))

/-- The first cell's gate pre-activations: the two biases, added one after the other, are their sum added once. -/
theorem gates1 (B : Fin 1024) (T : Fin 240) (j : Fin 360) :
    val_main_v8 (F := Ideal) x0 x1 x2 x3 (ix3 B T j)
      = gates (fun f => val_main_v1 (F := Ideal) x0 (ix3 B T f)) (fun j f => x1 (ix2 j f))
          (fun j => x2 (ix1 j) + x3 (ix1 j)) j := by
  have el : ∀ k : Fin 180, lidx_main_v2 (ix3 B T j) k = ix3 B T k := fun k => funext fun a => by
    match a with
    | ⟨0, _⟩ => rfl
    | ⟨1, _⟩ => rfl
    | ⟨2, _⟩ => rfl
  have er : ∀ k : Fin 180, ridx_main_v2 (ix3 B T j) k = ix2 j k := fun k => funext fun a => by
    match a with
    | ⟨0, _⟩ => rfl
    | ⟨1, _⟩ => rfl
  have e3 : idx_main_v3 (idx_main_v4 (ix3 B T j)) = ix1 j := funext fun a => by
    match a with
    | ⟨0, _⟩ => rfl
  have e6 : idx_main_v6 (idx_main_v7 (ix3 B T j)) = ix1 j := funext fun a => by
    match a with
    | ⟨0, _⟩ => rfl
  rw [val_main_v8_apply, val_main_v5_apply, val_main_v2_apply, val_main_v4_apply, val_main_v3_apply,
    val_main_v7_apply, val_main_v6_apply, e3, e6]
  simp only [el, er]
  exact add_assoc _ _ _

/-- The first cell's output: the quotient `1 / (1 + exp(-x))` the reference spells is the logistic function. -/
theorem cell1 (B : Fin 1024) (T : Fin 240) (h : Fin 90) :
    val_main_v28 (F := Ideal) x0 x1 x2 x3 (ix3 B T h)
      = cell (fun j => val_main_v8 (F := Ideal) x0 x1 x2 x3 (ix3 B T j)) h := by
  have e9 : idx_main_v9 (ix3 B T h) = ix3 B T (laneI h) := funext fun a => by
    match a with
    | ⟨0, _⟩ => rfl
    | ⟨1, _⟩ => rfl
    | ⟨2, _⟩ => rfl
  have e11 : idx_main_v11 (ix3 B T h) = ix3 B T (laneG h) := funext fun a => by
    match a with
    | ⟨0, _⟩ => rfl
    | ⟨1, _⟩ => rfl
    | ⟨2, _⟩ => rfl
  have e12 : idx_main_v12 (ix3 B T h) = ix3 B T (laneO h) := funext fun a => by
    match a with
    | ⟨0, _⟩ => rfl
    | ⟨1, _⟩ => rfl
    | ⟨2, _⟩ => rfl
  simp only [val_main_v28_apply, val_main_v26_apply, val_main_v27_apply, val_main_v25_apply, val_main_cst_2_apply, val_main_v24_apply, val_main_v23_apply, val_main_cst_1_apply, val_main_v22_apply, val_main_v21_apply, val_main_v12_apply, val_main_v20_apply, val_main_v18_apply, val_main_v19_apply, val_main_v17_apply, val_main_cst_0_apply, val_main_v16_apply, val_main_v15_apply, val_main_cst_apply, val_main_v14_apply, val_main_v13_apply, val_main_v9_apply, val_main_v11_apply,
    e9, e11, e12, Ideal.ofBits_def, one_f32]
  rfl

/-- The sigmoid between the two cells. -/
theorem mid (B : Fin 1024) (T : Fin 240) (k : Fin 90) :
    val_main_v34 (F := Ideal) x0 x1 x2 x3 (ix3 B T k)
      = Ideal.logistic (val_main_v28 (F := Ideal) x0 x1 x2 x3 (ix3 B T k)) := by
  simp only [val_main_v34_apply, val_main_v33_apply, val_main_cst_4_apply, val_main_v32_apply, val_main_v31_apply, val_main_cst_3_apply, val_main_v30_apply, val_main_v29_apply, Ideal.ofBits_def, one_f32]
  rfl

/-- The second cell's gate pre-activations. -/
theorem gates2 (B : Fin 1024) (T : Fin 240) (j : Fin 360) :
    val_main_v41 (F := Ideal) x0 x1 x2 x3 x4 x5 x6 (ix3 B T j)
      = gates (fun k => val_main_v34 (F := Ideal) x0 x1 x2 x3 (ix3 B T k)) (fun j k => x4 (ix2 j k))
          (fun j => x5 (ix1 j) + x6 (ix1 j)) j := by
  have el : ∀ k : Fin 90, lidx_main_v35 (ix3 B T j) k = ix3 B T k := fun k => funext fun a => by
    match a with
    | ⟨0, _⟩ => rfl
    | ⟨1, _⟩ => rfl
    | ⟨2, _⟩ => rfl
  have er : ∀ k : Fin 90, ridx_main_v35 (ix3 B T j) k = ix2 j k := fun k => funext fun a => by
    match a with
    | ⟨0, _⟩ => rfl
    | ⟨1, _⟩ => rfl
  have e3 : idx_main_v36 (idx_main_v37 (ix3 B T j)) = ix1 j := funext fun a => by
    match a with
    | ⟨0, _⟩ => rfl
  have e6 : idx_main_v39 (idx_main_v40 (ix3 B T j)) = ix1 j := funext fun a => by
    match a with
    | ⟨0, _⟩ => rfl
  rw [val_main_v41_apply, val_main_v38_apply, val_main_v35_apply, val_main_v37_apply, val_main_v36_apply,
    val_main_v40_apply, val_main_v39_apply, e3, e6]
  simp only [el, er]
  exact add_assoc _ _ _

/-- The second cell's output. -/
theorem cell2 (B : Fin 1024) (T : Fin 240) (h : Fin 90) :
    val_main_v61 (F := Ideal) x0 x1 x2 x3 x4 x5 x6 (ix3 B T h)
      = cell (fun j => val_main_v41 (F := Ideal) x0 x1 x2 x3 x4 x5 x6 (ix3 B T j)) h := by
  have e42 : idx_main_v42 (ix3 B T h) = ix3 B T (laneI h) := funext fun a => by
    match a with
    | ⟨0, _⟩ => rfl
    | ⟨1, _⟩ => rfl
    | ⟨2, _⟩ => rfl
  have e44 : idx_main_v44 (ix3 B T h) = ix3 B T (laneG h) := funext fun a => by
    match a with
    | ⟨0, _⟩ => rfl
    | ⟨1, _⟩ => rfl
    | ⟨2, _⟩ => rfl
  have e45 : idx_main_v45 (ix3 B T h) = ix3 B T (laneO h) := funext fun a => by
    match a with
    | ⟨0, _⟩ => rfl
    | ⟨1, _⟩ => rfl
    | ⟨2, _⟩ => rfl
  simp only [val_main_v61_apply, val_main_v59_apply, val_main_v60_apply, val_main_v58_apply, val_main_cst_8_apply, val_main_v57_apply, val_main_v56_apply, val_main_cst_7_apply, val_main_v55_apply, val_main_v54_apply, val_main_v45_apply, val_main_v53_apply, val_main_v51_apply, val_main_v52_apply, val_main_v50_apply, val_main_cst_6_apply, val_main_v49_apply, val_main_v48_apply, val_main_cst_5_apply, val_main_v47_apply, val_main_v46_apply, val_main_v42_apply, val_main_v44_apply,
    e42, e44, e45, Ideal.ofBits_def, one_f32]
  rfl

/-- So the second cell's output row is `Spec.hid` of the flattened input and the weights. -/
theorem hid_eq (B : Fin 1024) (T : Fin 240) (h : Fin 90) :
    val_main_v61 (F := Ideal) x0 x1 x2 x3 x4 x5 x6 (ix3 B T h)
      = hid (val_main_v1 (F := Ideal) x0) x1 (fun i => x2 i + x3 i) x4 (fun i => x5 i + x6 i) B T h := by
  rw [cell2]
  unfold hid Spec.hidden
  simp only [gates2, mid, cell1, gates1]

/-- The array before the softmax: the contraction over the 21600 flattened (time step, hidden unit) positions is
    the double sum, and the transposed table at (position, output) is the table viewed [40, 240, 90] at
    (output, time step, hidden unit). -/
theorem proj_eq (hc : S40x21600.ShapeCasts SW3) :
    val_main_v67 (F := Ideal) x0 x1 x2 x3 x4 x5 x6 x7 x8
      = proj (val_main_v1 (F := Ideal) x0) x1 (fun i => x2 i + x3 i) x4 (fun i => x5 i + x6 i)
          (shapeCast SW3 x7 hc) x8 := by
  funext i
  obtain ⟨B, o, rfl⟩ : ∃ (B : Fin 1024) (o : Fin 40), i = ix2 B o := ⟨i 0, i 1, eq_ix2 i⟩
  have e8 : idx_main_v65 (idx_main_v66 (ix2 B o)) = ix1 o := funext fun a => by
    match a with
    | ⟨0, _⟩ => rfl
  rw [val_main_v67_apply, val_main_v64_apply, val_main_v66_apply, val_main_v65_apply, e8]
  unfold proj
  refine congrArg (· + x8 (ix1 o)) ?_
  refine (sum_runs 240 90 _).trans (Finset.sum_congr rfl fun T _ => Finset.sum_congr rfl fun h _ => ?_)
  have e62 : idx_main_v62 (lidx_main_v64 (ix2 B o) (pos T h)) = ix3 B T h := funext fun a => Fin.ext (by
    have hT := T.isLt; have hh := h.isLt; have hB := B.isLt
    match a with
    | ⟨0, _⟩ => show (B.val * 21600 + (T.val * 90 + h.val)) / 21600 = B.val; omega
    | ⟨1, _⟩ => show (B.val * 21600 + (T.val * 90 + h.val)) / 90 % 240 = T.val; omega
    | ⟨2, _⟩ => show (B.val * 21600 + (T.val * 90 + h.val)) % 90 = h.val; omega)
  rw [val_main_v62_apply, val_main_v63_apply, e62, hid_eq]
  refine congrArg (hid _ _ _ _ _ B T h * ·) ?_
  exact (shapeCast_apply x7 hc (ix3 o T h) _ (by
    rw [Shape.rowMajor_val_three, Shape.rowMajor_val_two]
    show o.val * 21600 + (T.val * 90 + h.val) = (o.val * 240 + T.val) * 90 + h.val
    ring)).symm

end Cert.RefValue

end
-- ==== Proof.Bridge.lean ====
/-
  The two sides are one function of the arguments.

  The reference's result is the softmax of its projection; the kernel program's is the softmax of `G`. Both
  projections are `Spec.proj` of the same seven arrays: the flattened transposed input (a format change is the
  identity on the extended reals), the two weight matrices, each pair of biases added, the table viewed
  [40, 240, 90], and the projection bias.
-/
import proofs.«167840_j8718783611481_2_alg».proof.Proof.Host
import proofs.«167840_j8718783611481_2_alg».proof.Proof.RefValue

noncomputable section

open Idealize.ShloMosaic Idealize.ShloMosaic.TcCoe Idealize.SL.Sem

namespace Cert.Bridge

open Cert.Spec Cert.KernelIdeal Cert.KernelIdeal.Gen

/-- The reference's result, as a function of the arguments, is the softmax tail of `Spec.proj` of the arrays
    the kernel's host code prepares from the same arguments. -/
theorem result_eq (x0 : FVec Ideal Cert.KernelIdeal.S1024x3x60x240 .f32) (x1 : FVec Ideal Cert.KernelIdeal.S360x180 .f32)
    (x2 x3 : FVec Ideal Cert.KernelIdeal.S360 .f32) (x4 : FVec Ideal Cert.KernelIdeal.S360x90 .f32)
    (x5 x6 : FVec Ideal Cert.KernelIdeal.S360 .f32) (x7 : FVec Ideal Cert.KernelIdeal.S40x21600 .f32)
    (x8 : FVec Ideal Cert.KernelIdeal.S40 .f32) :
    Cert.ReferenceIdeal.Read.val_main_v79 (F := Ideal) x0 x1 x2 x3 x4 x5 x6 x7 x8
      = Cert.KernelIdeal.Host.tail
          (proj
            (shapeCast Cert.KernelIdeal.S1024x240x180 (transpose Cert.KernelIdeal.S1024x240x3x60 [0, 3, 1, 2]
              (truncf .bf16 x0 bitsLt_bf16_f32) transposes_S1024x3x60x240_S1024x240x3x60_0_3_1_2)
              shapeCasts_S1024x240x3x60_S1024x240x180)
            (truncf .bf16 x1 bitsLt_bf16_f32) (addf x2 x3) (truncf .bf16 x4 bitsLt_bf16_f32) (addf x5 x6)
            (shapeCast Cert.KernelIdeal.S40x240x90 x7 shapeCasts_S40x21600_S40x240x90) x8) := by
  have h := Cert.RefValue.proj_eq x0 x1 x2 x3 x4 x5 x6 x7 x8 shapeCasts_S40x21600_S40x240x90
  show Cert.KernelIdeal.Host.tail (Cert.ReferenceIdeal.Read.val_main_v67 (F := Ideal) x0 x1 x2 x3 x4 x5 x6 x7 x8) = _
  rw [h]
  rfl

end Cert.Bridge

end
-- ==== Proof.lean ====
/-
  The certificate: a fused kernel for two zero-state LSTM cells and a projection, against its jnp reference.

  The kernel walks a grid of 16 batch tiles by 10 time tiles. At each point it runs both cells on a tile of
  64 rows by 24 time steps and adds the tile's part of the projection into an accumulator kept in scratch
  memory; the accumulator is zeroed at the first time tile and written out, plus the bias, at the last. The
  reference runs the cells on the whole [1024, 240] batch and contracts all 21600 (time step, hidden unit)
  positions at once. Over the extended reals the two agree: a sum may be regrouped freely, the two biases may
  be added before or after the product, the sigmoid written as a quotient is the logistic function, and a
  change of float format is the identity. Neither side's value needs the inputs to be finite.

  Proof/Spec.lean states the common function; Proof/RefValue.lean reads the reference as it; Proof/Body.lean,
  Step.lean, Blocks.lean and Final.lean read the kernel's run as it, point by point and then as a whole
  array; Proof/Host.lean reads the host operations around the call; Proof/Bridge.lean joins the two.
-/
import proofs.«167840_j8718783611481_2_alg».proof.Defs
import proofs.«167840_j8718783611481_2_alg».proof.Proof.Gen.Kernel
import proofs.«167840_j8718783611481_2_alg».proof.Proof.Gen.Kernel.Skeleton
import proofs.«167840_j8718783611481_2_alg».proof.Proof.Gen.Kernel.Launch
import proofs.«167840_j8718783611481_2_alg».proof.Proof.Gen.Kernel.Points
import proofs.«167840_j8718783611481_2_alg».proof.Proof.Gen.Kernel.Frame
import proofs.«167840_j8718783611481_2_alg».proof.Proof.Gen.KernelIdeal
import proofs.«167840_j8718783611481_2_alg».proof.Proof.Gen.KernelIdeal.Skeleton
import proofs.«167840_j8718783611481_2_alg».proof.Proof.Gen.KernelIdeal.Launch
import proofs.«167840_j8718783611481_2_alg».proof.Proof.Gen.KernelIdeal.Points
import proofs.«167840_j8718783611481_2_alg».proof.Proof.Gen.KernelIdeal.Frame
import proofs.«167840_j8718783611481_2_alg».proof.Proof.Gen.ReferenceIdeal
import proofs.«167840_j8718783611481_2_alg».proof.Proof.Gen.ReferenceIdeal.Run
import proofs.«167840_j8718783611481_2_alg».proof.Proof.Gen.ReferenceIdeal.Read
import proofs.«167840_j8718783611481_2_alg».proof.Proof.Gen.Pre_finite_inputs
import proofs.«167840_j8718783611481_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the softmax of one and the same projection of arguments that agree. -/
theorem algebraic : Cert.algebraic_KernelIdeal_ReferenceIdeal := by
  intro m ρ m' ρ' _ hagree
  refine ⟨fun c => Cert.KernelIdeal.Host.tail (Cert.KernelIdeal.Final.G m c), Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  show _ = Cert.KernelIdeal.Host.tail (Cert.KernelIdeal.Final.G m c)
  unfold Cert.KernelIdeal.Final.G
  rw [Cert.KernelIdeal.Host.V_v2, Cert.KernelIdeal.Host.V_v3, Cert.KernelIdeal.Host.V_v4, Cert.KernelIdeal.Host.V_v5,
    Cert.KernelIdeal.Host.V_v6, Cert.KernelIdeal.Host.V_v7, Cert.KernelIdeal.Gen.V_main_arg8]
  exact Cert.Bridge.result_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
